-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x8192 : Shape := ⟨2, ![4, 8192]⟩
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x8192 : S_.BroadcastsInDim S4x8192 (![] : Fin 0 → Fin S4x8192.rank)
  reducesTo_S4x8192_S_d0_1 : S4x8192.ReducesTo [0, 1] S_

variable [Facts]

def fn {F : FTy → Type} [FloatOps F] (main_arg0 : IVec S4x8192 32) (main_arg1 : FVec F S8192x1024 .f32) : IVec S_ 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 32 := constantI S_ 32 0#32
  let main_v4 : IVec S4x8192 32 := broadcastInDim S4x8192 ![] bcast_S_S4x8192 main_c_0
  let main_v5 : IVec S4x8192 1 := cmpi .sge main_arg0 main_v4
  let main_c_1 : IVec S_ 32 := constantI S_ 32 8191#32
  let main_v6 : IVec S4x8192 32 := broadcastInDim S4x8192 ![] bcast_S_S4x8192 main_c_1
  let main_v7 : IVec S4x8192 1 := cmpi .sle main_arg0 main_v6
  let main_v8 : IVec S4x8192 1 := andi main_v5 main_v7
  let main_c_2 : IVec S_ 1 := constantI S_ 1 1#1
  let main_v9 : IVec S_ 1 := (fun x v => Host.reduce IntOp.andi x v reducesTo_S4x8192_S_d0_1 h_S_) main_v8 main_c_2
  let main_v10 : IVec S_ 1 := andi main_v3 main_v9
  main_v10
-- ==== Kernel.lean ====
abbrev S4x8192 : Shape := ⟨2, ![4, 8192]⟩
abbrev S8192x1024 : Shape := ⟨2, ![8192, 1024]⟩
abbrev S1x8192x1024 : Shape := ⟨3, ![1, 8192, 1024]⟩
abbrev S7x16x1024 : Shape := ⟨3, ![7, 16, 1024]⟩
abbrev S7 : Shape := ⟨1, ![7]⟩
abbrev S1x16x1024 : Shape := ⟨3, ![1, 16, 1024]⟩
abbrev S16x1024 : Shape := ⟨2, ![16, 1024]⟩
abbrev S1 : Shape := ⟨1, ![1]⟩
abbrev S_ : Shape := ⟨0, ![]⟩

abbrev nBuf : Table → Nat
  | .hbm => 3
  | .local .scVector .vmem => 1
  | _ => 0

abbrev bufTy : (tb : Table) → Fin (nBuf tb) → BufTy
  | .hbm, ⟨0, _⟩ => ⟨S4x8192, .i32⟩
  | .hbm, ⟨1, _⟩ => ⟨S8192x1024, .f32⟩
  | .hbm, ⟨2, _⟩ => ⟨S1x8192x1024, .f32⟩
  | .local .scVector .vmem, ⟨0, _⟩ => ⟨S7x16x1024, .f32⟩
  | _, _ => ⟨S4x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  let c0_i32_4 : BitVec 32 := 0#32
  ![v3.toNat, 0]
def k0_off2 (i : grid0.Coords) (c0_i32_60 : BitVec 32) : Fin 3 → Nat :=
  let c0_i32_62 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v75 : BitVec 32 := Scalar.addi v2 c0_i32_60
  let c0_i32_66 : BitVec 32 := 0#32
  ![0, v75.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S7x16x1024_S1x16x1024_0_0_0 : ∀ a, (![0, 0, 0] : Fin 3 → Nat) a + S1x16x1024.size a ≤ S7x16x1024.size a
  squeezes_S1x16x1024_S16x1024 : S1x16x1024.Squeezes S16x1024
  inb_S7_S1_0 : ∀ a, (![0] : Fin 1 → Nat) a + S1.size a ≤ S7.size a
  squeezes_S1_S_ : S1.Squeezes S_
  inb_S7x16x1024_S1x16x1024_1_0_0 : ∀ a, (![1, 0, 0] : Fin 3 → Nat) a + S1x16x1024.size a ≤ S7x16x1024.size a
  inb_S7_S1_1 : ∀ a, (![1] : Fin 1 → Nat) a + S1.size a ≤ S7.size a
  inb_S7x16x1024_S1x16x1024_2_0_0 : ∀ a, (![2, 0, 0] : Fin 3 → Nat) a + S1x16x1024.size a ≤ S7x16x1024.size a
  inb_S7_S1_2 : ∀ a, (![2] : Fin 1 → Nat) a + S1.size a ≤ S7.size a
  inb_S7x16x1024_S1x16x1024_3_0_0 : ∀ a, (![3, 0, 0] : Fin 3 → Nat) a + S1x16x1024.size a ≤ S7x16x1024.size a
  inb_S7_S1_3 : ∀ a, (![3] : Fin 1 → Nat) a + S1.size a ≤ S7.size a
  inb_S7x16x1024_S1x16x1024_4_0_0 : ∀ a, (![4, 0, 0] : Fin 3 → Nat) a + S1x16x1024.size a ≤ S7x16x1024.size a
  inb_S7_S1_4 : ∀ a, (![4] : Fin 1 → Nat) a + S1.size a ≤ S7.size a
  inb_S7x16x1024_S1x16x1024_5_0_0 : ∀ a, (![5, 0, 0] : Fin 3 → Nat) a + S1x16x1024.size a ≤ S7x16x1024.size a
  inb_S7_S1_5 : ∀ a, (![5] : Fin 1 → Nat) a + S1.size a ≤ S7.size a
  inb_S7x16x1024_S1x16x1024_6_0_0 : ∀ a, (![6, 0, 0] : Fin 3 → Nat) a + S1x16x1024.size a ≤ S7x16x1024.size a
  inb_S7_S1_6 : ∀ a, (![6] : Fin 1 → Nat) a + S1.size a ≤ S7.size a
  hcc0_scratch1 : 0 + S7.numel ≤ 14
  hcc0_scratch2 : 7 + S7.numel ≤ 14
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 16), ∀ a, (k0_off1 i (BitVec.ofNat 32 (16 * r.val))) a + S16x1024.size a ≤ S8192x1024.size a
  k0_off2_inb : ∀ i : grid0.Coords, ∀ (r : Fin 16), ∀ a, (k0_off2 i (BitVec.ofNat 32 (16 * r.val))) a + S1x16x1024.size a ≤ S1x8192x1024.size a

variable [Facts₀]

abbrev cc0_scratch1 : DmaSems sig S7 := SemArray.consecutive 0 S7 hcc0_scratch1
abbrev cc0_scratch2 : DmaSems sig S7 := SemArray.consecutive 7 S7 hcc0_scratch2

class Facts : Prop extends Facts₀ where

variable [Facts]
-- ==== ReferenceIdeal.lean ====
abbrev S4x8192 : Shape := ⟨2, ![4, 8192]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x1024 : Shape := ⟨3, ![1, 8192, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S1x8192x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  bcast_S8192x1024_S1x8192x1024_1_2 : S8192x1024.BroadcastsInDim S1x8192x1024 (![1, 2] : Fin 2 → Fin S1x8192x1024.rank)
  gather_S8192x1024_S8192x1_S8192x1024_1_0_n_n_0_1_11024_wf : GatherDims.WF S8192x1024 S8192x1 S8192x1024 [1] [0] [] [0] [] 1 ![1, 1024]

variable [Facts₀]

def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf

class Facts : Prop extends Facts₀ where

variable [Facts]
-- ==== Proof.Spec.lean ====
/-
  The function both programs compute: the positional table with a leading axis of extent one put in front,
  `out[0, r, c] = table[r, c]` for every row `r < 8192` and column `c < 1024`. Stated over any element type, so that it is
  the same definition whether an entry is a 32-bit word or an extended real; it names no program.
-/
import Idealize.ShloMosaic.Lib.ValueIdx

namespace Cert.Spec

open Idealize.ShloMosaic Idealize.ShloMosaic.ValueIdx

/-- The table under a new leading axis of extent one: entry `(b, r, c)` of the result is entry `(r, c)` of the table. -/
def lead {α : Type} (e : (⟨2, ![8192, 1024]⟩ : Shape).Idx → α) : (⟨3, ![1, 8192, 1024]⟩ : Shape).Idx → α :=
  fun i => e (ix2 (i 1) (i 2))

theorem lead_apply {α : Type} (e : (⟨2, ![8192, 1024]⟩ : Shape).Idx → α) (i : (⟨3, ![1, 8192, 1024]⟩ : Shape).Idx) :
    lead e i = e (ix2 (i 1) (i 2)) := rfl

theorem lead_ix3 {α : Type} (e : (⟨2, ![8192, 1024]⟩ : Shape).Idx → α) (b : Fin 1) (r : Fin 8192) (c : Fin 1024) :
    lead e (ix3 b r c) = e (ix2 r c) := rfl

end Cert.Spec
-- ==== Proof.IdealChunks.lean ====
/-
  The geometry of the copy. The table has 8192 rows of 1024 entries; it is cut into 512 chunks of sixteen
  consecutive rows. The worker at grid point (c, s) — SparseCore c, vector subcore s — has number 2·s + c and moves the
  sixteen chunks 16·(2·s + c) … 16·(2·s + c) + 15, so the 32 workers' chunks are pairwise disjoint and together are every
  row. Chunk number g of the table is rows 16·g … 16·g + 15, and the same rows of the result's one plane. A worker's
  scratch has seven slots of sixteen rows. This module names those sets, the memrefs the body slices for them, and
  shows that each memref's elements are exactly its set.
-/
import proofs.«202656_g558345749078_cont_9to1c4b_557_14_alg».proof.KernelIdeal
import proofs.«202656_g558345749078_cont_9to1c4b_557_14_alg».proof.Proof.Gen.KernelIdeal
import proofs.«202656_g558345749078_cont_9to1c4b_557_14_alg».proof.Proof.Gen.KernelIdeal.Skeleton
import Idealize.ShloMosaic.Lib.SparseCore.Launch
import Idealize.ShloMosaic.Lib.SparseCore.Ops
import Idealize.ShloMosaic.Lib.Pipeline.Kit
import Idealize.ShloMosaic.Lib.Tactic
import proofs.«202656_g558345749078_cont_9to1c4b_557_14_alg».proof.Proof.Spec

noncomputable section

namespace Cert.KernelIdeal.Copy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Arrays, threads, chunk numbers -/

/-- The token ids (never read), the table and the result, as locations of device `d`. -/
abbrev xLoc (d : Dev nD) : Loc nD τ sig := (SparseCore.T d).loc main_arg0
abbrev eLoc (d : Dev nD) : Loc nD τ sig := (SparseCore.T d).loc main_arg1
abbrev oLoc (d : Dev nD) : Loc nD τ sig := (SparseCore.T d).loc main_v0

abbrev eW : Memref sig .scVector .hbm S8192x1024 .f32 := Memref.whole main_arg1_scv
abbrev oW : Memref sig .scVector .hbm S1x8192x1024 .f32 := Memref.whole main_v0_scv
abbrev bW : Memref sig .scVector .vmem S7x16x1024 .f32 := Memref.whole cc0_scratch0

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

/-- Chunk `k` of worker `(c, s)` is chunk `32·s + 16·c + k` of the table. -/
def chunkNo (c : Fin 2) (s : Fin 16) (k : Fin 16) : Fin 512 :=
  ⟨32 * s.val + 16 * c.val + k.val, by have := c.isLt; have := s.isLt; have := k.isLt; omega⟩

theorem chunkNo_val (c : Fin 2) (s : Fin 16) (k : Fin 16) : (chunkNo c s k).val = 32 * s.val + 16 * c.val + k.val := rfl

/-- Every chunk of the table is some worker's, -/
theorem chunkNo_surj (g : Fin 512) : ∃ c s k, chunkNo c s k = g := by
  have hg := g.isLt
  refine ⟨⟨(g.val / 16) % 2, by omega⟩, ⟨g.val / 32, by omega⟩, ⟨g.val % 16, by omega⟩, Fin.ext ?_⟩
  show 32 * (g.val / 32) + 16 * ((g.val / 16) % 2) + g.val % 16 = g.val
  omega
/-- and of one worker only. -/
theorem chunkNo_inj {c c' : Fin 2} {s s' : Fin 16} {k k' : Fin 16} (h : chunkNo c s k = chunkNo c' s' k') : c = c' ∧ s = s' ∧ k = k' := by
  have h' : 32 * s.val + 16 * c.val + k.val = 32 * s'.val + 16 * c'.val + k'.val := congrArg Fin.val h
  have := c.isLt; have := c'.isLt; have := k.isLt; have := k'.isLt
  exact ⟨Fin.ext (by omega), Fin.ext (by omega), Fin.ext (by omega)⟩

theorem hdivE : 512 ∣ S8192x1024.size 0 := ⟨16, rfl⟩
theorem hdivO : 512 ∣ S1x8192x1024.size 1 := ⟨16, rfl⟩
theorem hdivB : 7 ∣ S7x16x1024.size 0 := ⟨1, rfl⟩

/-- Rows `16·g … 16·g + 15` of the table; of the result's plane; slot `s` of a scratch. -/
abbrev eSet (g : Fin 512) : Finset S8192x1024.Idx := (Rect.part (s := S8192x1024) (a₀ := 0) hdivE g).set
abbrev oSet (g : Fin 512) : Finset S1x8192x1024.Idx := (Rect.part (s := S1x8192x1024) (a₀ := 1) hdivO g).set
abbrev bSet (s : Fin 7) : Finset S7x16x1024.Idx := (Rect.part (s := S7x16x1024) (a₀ := 0) hdivB s).set

/-! ## The memrefs the body slices, chunk by chunk -/

abbrev eChunk (L : grid0.Coords) (k : Fin 16) : Memref sig .scVector .hbm S16x1024 .f32 :=
  eW.slice (Rect.unit (s := S8192x1024) (k0_off1 L (BitVec.ofNat 32 (16 * k.val))) S16x1024.size (k0_off1_inb L k)) (fun _ => rfl)
abbrev oChunk (L : grid0.Coords) (k : Fin 16) : Memref sig .scVector .hbm S16x1024 .f32 :=
  (oW.slice (Rect.unit (s := S1x8192x1024) (k0_off2 L (BitVec.ofNat 32 (16 * k.val))) S1x16x1024.size (k0_off2_inb L k)) (fun _ => rfl)).squeeze S16x1024 squeezes_S1x16x1024_S16x1024
theorem slot_inb (s : Fin 7) : ∀ a, (![s.val, 0, 0] : Fin 3 → Nat) a + S1x16x1024.size a ≤ S7x16x1024.size a := by
  have := s.isLt
  intro a; match a with
  | 0 => show s.val + 1 ≤ 7; omega
  | 1 => show 0 + 16 ≤ 16; omega
  | 2 => show 0 + 1024 ≤ 1024; omega
abbrev slot (s : Fin 7) : Memref sig .scVector .vmem S16x1024 .f32 :=
  (bW.slice (Rect.unit (s := S7x16x1024) ![s.val, 0, 0] S1x16x1024.size (slot_inb s)) (fun _ => rfl)).squeeze S16x1024 squeezes_S1x16x1024_S16x1024

/-- The same memrefs with the body's own literals (chunk `k` starts at row offset `16·k` of the worker's rows). -/
abbrev eC0 (L : grid0.Coords) : Memref sig .scVector .hbm S16x1024 .f32 := eW.slice (Rect.unit (s := S8192x1024) (k0_off1 L 0#32) S16x1024.size (k0_off1_inb L 0)) (fun _ => rfl)
abbrev eC1 (L : grid0.Coords) : Memref sig .scVector .hbm S16x1024 .f32 := eW.slice (Rect.unit (s := S8192x1024) (k0_off1 L 16#32) S16x1024.size (k0_off1_inb L 1)) (fun _ => rfl)
abbrev eC2 (L : grid0.Coords) : Memref sig .scVector .hbm S16x1024 .f32 := eW.slice (Rect.unit (s := S8192x1024) (k0_off1 L 32#32) S16x1024.size (k0_off1_inb L 2)) (fun _ => rfl)
abbrev eC3 (L : grid0.Coords) : Memref sig .scVector .hbm S16x1024 .f32 := eW.slice (Rect.unit (s := S8192x1024) (k0_off1 L 48#32) S16x1024.size (k0_off1_inb L 3)) (fun _ => rfl)
abbrev eC4 (L : grid0.Coords) : Memref sig .scVector .hbm S16x1024 .f32 := eW.slice (Rect.unit (s := S8192x1024) (k0_off1 L 64#32) S16x1024.size (k0_off1_inb L 4)) (fun _ => rfl)
abbrev eC5 (L : grid0.Coords) : Memref sig .scVector .hbm S16x1024 .f32 := eW.slice (Rect.unit (s := S8192x1024) (k0_off1 L 80#32) S16x1024.size (k0_off1_inb L 5)) (fun _ => rfl)
abbrev eC6 (L : grid0.Coords) : Memref sig .scVector .hbm S16x1024 .f32 := eW.slice (Rect.unit (s := S8192x1024) (k0_off1 L 96#32) S16x1024.size (k0_off1_inb L 6)) (fun _ => rfl)
abbrev eC7 (L : grid0.Coords) : Memref sig .scVector .hbm S16x1024 .f32 := eW.slice (Rect.unit (s := S8192x1024) (k0_off1 L 112#32) S16x1024.size (k0_off1_inb L 7)) (fun _ => rfl)
abbrev eC8 (L : grid0.Coords) : Memref sig .scVector .hbm S16x1024 .f32 := eW.slice (Rect.unit (s := S8192x1024) (k0_off1 L 128#32) S16x1024.size (k0_off1_inb L 8)) (fun _ => rfl)
abbrev eC9 (L : grid0.Coords) : Memref sig .scVector .hbm S16x1024 .f32 := eW.slice (Rect.unit (s := S8192x1024) (k0_off1 L 144#32) S16x1024.size (k0_off1_inb L 9)) (fun _ => rfl)
abbrev eC10 (L : grid0.Coords) : Memref sig .scVector .hbm S16x1024 .f32 := eW.slice (Rect.unit (s := S8192x1024) (k0_off1 L 160#32) S16x1024.size (k0_off1_inb L 10)) (fun _ => rfl)
abbrev eC11 (L : grid0.Coords) : Memref sig .scVector .hbm S16x1024 .f32 := eW.slice (Rect.unit (s := S8192x1024) (k0_off1 L 176#32) S16x1024.size (k0_off1_inb L 11)) (fun _ => rfl)
abbrev eC12 (L : grid0.Coords) : Memref sig .scVector .hbm S16x1024 .f32 := eW.slice (Rect.unit (s := S8192x1024) (k0_off1 L 192#32) S16x1024.size (k0_off1_inb L 12)) (fun _ => rfl)
abbrev eC13 (L : grid0.Coords) : Memref sig .scVector .hbm S16x1024 .f32 := eW.slice (Rect.unit (s := S8192x1024) (k0_off1 L 208#32) S16x1024.size (k0_off1_inb L 13)) (fun _ => rfl)
abbrev eC14 (L : grid0.Coords) : Memref sig .scVector .hbm S16x1024 .f32 := eW.slice (Rect.unit (s := S8192x1024) (k0_off1 L 224#32) S16x1024.size (k0_off1_inb L 14)) (fun _ => rfl)
abbrev eC15 (L : grid0.Coords) : Memref sig .scVector .hbm S16x1024 .f32 := eW.slice (Rect.unit (s := S8192x1024) (k0_off1 L 240#32) S16x1024.size (k0_off1_inb L 15)) (fun _ => rfl)
abbrev oC0 (L : grid0.Coords) : Memref sig .scVector .hbm S16x1024 .f32 := (oW.slice (Rect.unit (s := S1x8192x1024) (k0_off2 L 0#32) S1x16x1024.size (k0_off2_inb L 0)) (fun _ => rfl)).squeeze S16x1024 squeezes_S1x16x1024_S16x1024
abbrev oC1 (L : grid0.Coords) : Memref sig .scVector .hbm S16x1024 .f32 := (oW.slice (Rect.unit (s := S1x8192x1024) (k0_off2 L 16#32) S1x16x1024.size (k0_off2_inb L 1)) (fun _ => rfl)).squeeze S16x1024 squeezes_S1x16x1024_S16x1024
abbrev oC2 (L : grid0.Coords) : Memref sig .scVector .hbm S16x1024 .f32 := (oW.slice (Rect.unit (s := S1x8192x1024) (k0_off2 L 32#32) S1x16x1024.size (k0_off2_inb L 2)) (fun _ => rfl)).squeeze S16x1024 squeezes_S1x16x1024_S16x1024
abbrev oC3 (L : grid0.Coords) : Memref sig .scVector .hbm S16x1024 .f32 := (oW.slice (Rect.unit (s := S1x8192x1024) (k0_off2 L 48#32) S1x16x1024.size (k0_off2_inb L 3)) (fun _ => rfl)).squeeze S16x1024 squeezes_S1x16x1024_S16x1024
abbrev oC4 (L : grid0.Coords) : Memref sig .scVector .hbm S16x1024 .f32 := (oW.slice (Rect.unit (s := S1x8192x1024) (k0_off2 L 64#32) S1x16x1024.size (k0_off2_inb L 4)) (fun _ => rfl)).squeeze S16x1024 squeezes_S1x16x1024_S16x1024
abbrev oC5 (L : grid0.Coords) : Memref sig .scVector .hbm S16x1024 .f32 := (oW.slice (Rect.unit (s := S1x8192x1024) (k0_off2 L 80#32) S1x16x1024.size (k0_off2_inb L 5)) (fun _ => rfl)).squeeze S16x1024 squeezes_S1x16x1024_S16x1024
abbrev oC6 (L : grid0.Coords) : Memref sig .scVector .hbm S16x1024 .f32 := (oW.slice (Rect.unit (s := S1x8192x1024) (k0_off2 L 96#32) S1x16x1024.size (k0_off2_inb L 6)) (fun _ => rfl)).squeeze S16x1024 squeezes_S1x16x1024_S16x1024
abbrev oC7 (L : grid0.Coords) : Memref sig .scVector .hbm S16x1024 .f32 := (oW.slice (Rect.unit (s := S1x8192x1024) (k0_off2 L 112#32) S1x16x1024.size (k0_off2_inb L 7)) (fun _ => rfl)).squeeze S16x1024 squeezes_S1x16x1024_S16x1024
abbrev oC8 (L : grid0.Coords) : Memref sig .scVector .hbm S16x1024 .f32 := (oW.slice (Rect.unit (s := S1x8192x1024) (k0_off2 L 128#32) S1x16x1024.size (k0_off2_inb L 8)) (fun _ => rfl)).squeeze S16x1024 squeezes_S1x16x1024_S16x1024
abbrev oC9 (L : grid0.Coords) : Memref sig .scVector .hbm S16x1024 .f32 := (oW.slice (Rect.unit (s := S1x8192x1024) (k0_off2 L 144#32) S1x16x1024.size (k0_off2_inb L 9)) (fun _ => rfl)).squeeze S16x1024 squeezes_S1x16x1024_S16x1024
abbrev oC10 (L : grid0.Coords) : Memref sig .scVector .hbm S16x1024 .f32 := (oW.slice (Rect.unit (s := S1x8192x1024) (k0_off2 L 160#32) S1x16x1024.size (k0_off2_inb L 10)) (fun _ => rfl)).squeeze S16x1024 squeezes_S1x16x1024_S16x1024
abbrev oC11 (L : grid0.Coords) : Memref sig .scVector .hbm S16x1024 .f32 := (oW.slice (Rect.unit (s := S1x8192x1024) (k0_off2 L 176#32) S1x16x1024.size (k0_off2_inb L 11)) (fun _ => rfl)).squeeze S16x1024 squeezes_S1x16x1024_S16x1024
abbrev oC12 (L : grid0.Coords) : Memref sig .scVector .hbm S16x1024 .f32 := (oW.slice (Rect.unit (s := S1x8192x1024) (k0_off2 L 192#32) S1x16x1024.size (k0_off2_inb L 12)) (fun _ => rfl)).squeeze S16x1024 squeezes_S1x16x1024_S16x1024
abbrev oC13 (L : grid0.Coords) : Memref sig .scVector .hbm S16x1024 .f32 := (oW.slice (Rect.unit (s := S1x8192x1024) (k0_off2 L 208#32) S1x16x1024.size (k0_off2_inb L 13)) (fun _ => rfl)).squeeze S16x1024 squeezes_S1x16x1024_S16x1024
abbrev oC14 (L : grid0.Coords) : Memref sig .scVector .hbm S16x1024 .f32 := (oW.slice (Rect.unit (s := S1x8192x1024) (k0_off2 L 224#32) S1x16x1024.size (k0_off2_inb L 14)) (fun _ => rfl)).squeeze S16x1024 squeezes_S1x16x1024_S16x1024
abbrev oC15 (L : grid0.Coords) : Memref sig .scVector .hbm S16x1024 .f32 := (oW.slice (Rect.unit (s := S1x8192x1024) (k0_off2 L 240#32) S1x16x1024.size (k0_off2_inb L 15)) (fun _ => rfl)).squeeze S16x1024 squeezes_S1x16x1024_S16x1024
abbrev sl0 : Memref sig .scVector .vmem S16x1024 .f32 := (bW.slice (Rect.unit (s := S7x16x1024) ![0, 0, 0] S1x16x1024.size inb_S7x16x1024_S1x16x1024_0_0_0) (fun _ => rfl)).squeeze S16x1024 squeezes_S1x16x1024_S16x1024
abbrev sl1 : Memref sig .scVector .vmem S16x1024 .f32 := (bW.slice (Rect.unit (s := S7x16x1024) ![1, 0, 0] S1x16x1024.size inb_S7x16x1024_S1x16x1024_1_0_0) (fun _ => rfl)).squeeze S16x1024 squeezes_S1x16x1024_S16x1024
abbrev sl2 : Memref sig .scVector .vmem S16x1024 .f32 := (bW.slice (Rect.unit (s := S7x16x1024) ![2, 0, 0] S1x16x1024.size inb_S7x16x1024_S1x16x1024_2_0_0) (fun _ => rfl)).squeeze S16x1024 squeezes_S1x16x1024_S16x1024
abbrev sl3 : Memref sig .scVector .vmem S16x1024 .f32 := (bW.slice (Rect.unit (s := S7x16x1024) ![3, 0, 0] S1x16x1024.size inb_S7x16x1024_S1x16x1024_3_0_0) (fun _ => rfl)).squeeze S16x1024 squeezes_S1x16x1024_S16x1024
abbrev sl4 : Memref sig .scVector .vmem S16x1024 .f32 := (bW.slice (Rect.unit (s := S7x16x1024) ![4, 0, 0] S1x16x1024.size inb_S7x16x1024_S1x16x1024_4_0_0) (fun _ => rfl)).squeeze S16x1024 squeezes_S1x16x1024_S16x1024
abbrev sl5 : Memref sig .scVector .vmem S16x1024 .f32 := (bW.slice (Rect.unit (s := S7x16x1024) ![5, 0, 0] S1x16x1024.size inb_S7x16x1024_S1x16x1024_5_0_0) (fun _ => rfl)).squeeze S16x1024 squeezes_S1x16x1024_S16x1024
abbrev sl6 : Memref sig .scVector .vmem S16x1024 .f32 := (bW.slice (Rect.unit (s := S7x16x1024) ![6, 0, 0] S1x16x1024.size inb_S7x16x1024_S1x16x1024_6_0_0) (fun _ => rfl)).squeeze S16x1024 squeezes_S1x16x1024_S16x1024
abbrev inSem0 : DmaSem sig := ((cc0_scratch1.slice (Rect.unit (s := S7) ![0] S1.size inb_S7_S1_0)).squeeze S_ squeezes_S1_S_).sem
abbrev inSem1 : DmaSem sig := ((cc0_scratch1.slice (Rect.unit (s := S7) ![1] S1.size inb_S7_S1_1)).squeeze S_ squeezes_S1_S_).sem
abbrev inSem2 : DmaSem sig := ((cc0_scratch1.slice (Rect.unit (s := S7) ![2] S1.size inb_S7_S1_2)).squeeze S_ squeezes_S1_S_).sem
abbrev inSem3 : DmaSem sig := ((cc0_scratch1.slice (Rect.unit (s := S7) ![3] S1.size inb_S7_S1_3)).squeeze S_ squeezes_S1_S_).sem
abbrev inSem4 : DmaSem sig := ((cc0_scratch1.slice (Rect.unit (s := S7) ![4] S1.size inb_S7_S1_4)).squeeze S_ squeezes_S1_S_).sem
abbrev inSem5 : DmaSem sig := ((cc0_scratch1.slice (Rect.unit (s := S7) ![5] S1.size inb_S7_S1_5)).squeeze S_ squeezes_S1_S_).sem
abbrev inSem6 : DmaSem sig := ((cc0_scratch1.slice (Rect.unit (s := S7) ![6] S1.size inb_S7_S1_6)).squeeze S_ squeezes_S1_S_).sem
abbrev outSem0 : DmaSem sig := ((cc0_scratch2.slice (Rect.unit (s := S7) ![0] S1.size inb_S7_S1_0)).squeeze S_ squeezes_S1_S_).sem
abbrev outSem1 : DmaSem sig := ((cc0_scratch2.slice (Rect.unit (s := S7) ![1] S1.size inb_S7_S1_1)).squeeze S_ squeezes_S1_S_).sem
abbrev outSem2 : DmaSem sig := ((cc0_scratch2.slice (Rect.unit (s := S7) ![2] S1.size inb_S7_S1_2)).squeeze S_ squeezes_S1_S_).sem
abbrev outSem3 : DmaSem sig := ((cc0_scratch2.slice (Rect.unit (s := S7) ![3] S1.size inb_S7_S1_3)).squeeze S_ squeezes_S1_S_).sem
abbrev outSem4 : DmaSem sig := ((cc0_scratch2.slice (Rect.unit (s := S7) ![4] S1.size inb_S7_S1_4)).squeeze S_ squeezes_S1_S_).sem
abbrev outSem5 : DmaSem sig := ((cc0_scratch2.slice (Rect.unit (s := S7) ![5] S1.size inb_S7_S1_5)).squeeze S_ squeezes_S1_S_).sem
abbrev outSem6 : DmaSem sig := ((cc0_scratch2.slice (Rect.unit (s := S7) ![6] S1.size inb_S7_S1_6)).squeeze S_ squeezes_S1_S_).sem

/-! ## Each memref's elements are its chunk -/

theorem eRect_eq (L : grid0.Coords) (k : Fin 16) :
    Rect.unit (s := S8192x1024) (k0_off1 L (BitVec.ofNat 32 (16 * k.val))) S16x1024.size (k0_off1_inb L k)
      = Rect.part (s := S8192x1024) (a₀ := 0) hdivE (chunkNo (cL L) (sL L) k) := by
  unfold Rect.part Rect.block
  congr 1 <;> funext a
  · rw [k0_off1_eq]
    match a with
    | 0 => simp [Shape.partIx, Shape.partSize, chunkNo]; omega
    | 1 => simp [Shape.partIx, Shape.partSize]
  · match a with
    | 0 => simp [Shape.partSize]
    | 1 => simp [Shape.partSize]

theorem oRect_eq (L : grid0.Coords) (k : Fin 16) :
    Rect.unit (s := S1x8192x1024) (k0_off2 L (BitVec.ofNat 32 (16 * k.val))) S1x16x1024.size (k0_off2_inb L k)
      = Rect.part (s := S1x8192x1024) (a₀ := 1) hdivO (chunkNo (cL L) (sL L) k) := by
  unfold Rect.part Rect.block
  congr 1 <;> funext a
  · rw [k0_off2_eq]
    match a with
    | 0 => simp [Shape.partIx, Shape.partSize]
    | 1 => simp [Shape.partIx, Shape.partSize, chunkNo]; omega
    | 2 => simp [Shape.partIx, Shape.partSize]
  · match a with
    | 0 => simp [Shape.partSize]
    | 1 => simp [Shape.partSize]
    | 2 => simp [Shape.partSize]

theorem bRect_eq (s : Fin 7) :
    Rect.unit (s := S7x16x1024) ![s.val, 0, 0] S1x16x1024.size (slot_inb s) = Rect.part (s := S7x16x1024) (a₀ := 0) hdivB s := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem set_eChunk (L : grid0.Coords) (k : Fin 16) : (eChunk L k).view.set = eSet (chunkNo (cL L) (sL L) k) := by
  show ((View.whole (main_arg1_scv : Ref sig .scVector)).slice (Rect.unit (s := S8192x1024) (k0_off1 L (BitVec.ofNat 32 (16 * k.val))) S16x1024.size (k0_off1_inb L k))).set = _
  rw [View.set_slice, eRect_eq]; exact Finset.map_refl
theorem set_oChunk (L : grid0.Coords) (k : Fin 16) : (oChunk L k).view.set = oSet (chunkNo (cL L) (sL L) k) := by
  show (((View.whole (main_v0_scv : Ref sig .scVector)).slice (Rect.unit (s := S1x8192x1024) (k0_off2 L (BitVec.ofNat 32 (16 * k.val))) S1x16x1024.size (k0_off2_inb L k))).reshape S16x1024 squeezes_S1x16x1024_S16x1024.numel_eq).set = _
  rw [View.set_reshape, View.set_slice]
  exact (congrArg (fun r : Rect S1x8192x1024 => r.set.map (View.whole (main_v0_scv : Ref sig .scVector)).emb) (oRect_eq L k)).trans Finset.map_refl
theorem set_slot (s : Fin 7) : (slot s).view.set = bSet s := by
  show (((View.whole (cc0_scratch0 : Ref sig .scVector)).slice (Rect.unit (s := S7x16x1024) ![s.val, 0, 0] S1x16x1024.size (slot_inb s))).reshape S16x1024 squeezes_S1x16x1024_S16x1024.numel_eq).set = _
  rw [View.set_reshape, View.set_slice]
  exact (congrArg (fun r : Rect S7x16x1024 => r.set.map (View.whole (cc0_scratch0 : Ref sig .scVector)).emb) (bRect_eq s)).trans Finset.map_refl

/-! ## The chunks are disjoint and cover -/

theorem eSets_disjoint : ∀ i ∈ (Finset.univ : Finset (Fin 512)), ∀ j ∈ (Finset.univ : Finset (Fin 512)), i ≠ j → Disjoint (eSet i) (eSet j) :=
  fun _ _ _ _ h => Rect.part_disjoint hdivE h
theorem eSets_cover : (Finset.univ : Finset (Fin 512)).biUnion eSet = Finset.univ := Rect.biUnion_part hdivE
theorem oSets_disjoint : ∀ i ∈ (Finset.univ : Finset (Fin 512)), ∀ j ∈ (Finset.univ : Finset (Fin 512)), i ≠ j → Disjoint (oSet i) (oSet j) :=
  fun _ _ _ _ h => Rect.part_disjoint hdivO h
theorem oSets_cover : (Finset.univ : Finset (Fin 512)).biUnion oSet = Finset.univ := Rect.biUnion_part hdivO
theorem bSets_disjoint : ∀ i ∈ (Finset.univ : Finset (Fin 7)), ∀ j ∈ (Finset.univ : Finset (Fin 7)), i ≠ j → Disjoint (bSet i) (bSet j) :=
  fun _ _ _ _ h => Rect.part_disjoint hdivB h
theorem bSets_cover : (Finset.univ : Finset (Fin 7)).biUnion bSet = Finset.univ := Rect.biUnion_part hdivB

end Cert.KernelIdeal.Copy

end
-- ==== Proof.IdealTile.lean ====
/-
  One worker's task. The worker at grid point `L` holds its sixteen chunks of the table and of the result and the seven
  slots of its scratch, each by exactly its own elements. It starts seven reads (chunk i of the table into slot i mod 7),
  then for i = 0 … 15: waits for read i, starts write i (slot i mod 7 into chunk i of the result) and, three steps
  later, waits for write i - 3 and reuses its slot for read i + 4; the remaining writes are waited for at the end. Every
  slot has a semaphore of its own for reads and one for writes, and a slot's next copy starts only after the wait for its
  previous one, so at most one copy is ever outstanding on a semaphore and no buffer is touched while a copy on it is in
  flight. Each chunk of the result therefore ends holding what the matching chunk of the table held: the result's
  entry (0, r, c) is the table's entry (r, c) on the worker's rows.
-/
import proofs.«202656_g558345749078_cont_9to1c4b_557_14_alg».proof.KernelIdeal
import proofs.«202656_g558345749078_cont_9to1c4b_557_14_alg».proof.Proof.Gen.KernelIdeal
import proofs.«202656_g558345749078_cont_9to1c4b_557_14_alg».proof.Proof.Gen.KernelIdeal.Skeleton
import Idealize.ShloMosaic.Lib.SparseCore.Launch
import Idealize.ShloMosaic.Lib.SparseCore.Ops
import Idealize.ShloMosaic.Lib.Pipeline.Kit
import Idealize.ShloMosaic.Lib.Tactic
import Idealize.ShloMosaic.Lib.ValueLayout
import proofs.«202656_g558345749078_cont_9to1c4b_557_14_alg».proof.Proof.Spec
import proofs.«202656_g558345749078_cont_9to1c4b_557_14_alg».proof.Proof.IdealChunks

noncomputable section

namespace Cert.KernelIdeal.Copy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-- What the result must hold: the table under a leading axis of extent one. -/
abbrev want (d : Dev nD) : Buf (Elt F) (oLoc d) := Cert.Spec.lead (m (eLoc d))

/-- Chunk `g` of the table at its launch contents; chunk `g` of the result at `f`. -/
abbrev eChunkPts (d : Dev nD) (g : Fin 512) : sProp 𝕄 := eLoc d ↦[eSet g]{fullShare} m (eLoc d)
abbrev oChunkPts (d : Dev nD) (g : Fin 512) (f : Buf (Elt F) (oLoc d)) : sProp 𝕄 := oLoc d ↦[oSet g]{fullShare} f

omit [FloatOps F] in
theorem bigSep_fin7 (Φ : Fin 7 → sProp 𝕄) :
    bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide, SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem bigSep_fin14 (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
  rw [show (Finset.univ : Finset (Fin 14)) = {0, 1, 2, 3, 4, 5, 6, 7, 8, 9, 10, 11, 12, 13} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

section Tile

variable (d : Dev nD) (L : grid0.Coords)

/-- The worker's scratch. -/
abbrev bLoc : Loc nD τ sig := (V d (cV L) (jV L)).loc cc0_scratch0

/-! ### A chunk held by the worker's memref is the chunk of the array -/

omit [FloatOps F] in
theorem pts_e (k : Fin 16) (f : Buf (Elt F) (eLoc d)) :
    ((eChunk L k).view.loc (V d (cV L) (jV L)) ↦[(eChunk L k).view.set]{fullShare} f : sProp 𝕄)
      = eLoc d ↦[eSet (chunkNo (cL L) (sL L) k)]{fullShare} f := by
  rw [set_eChunk]
omit [FloatOps F] in
theorem pts_o (k : Fin 16) (f : Buf (Elt F) (oLoc d)) :
    ((oChunk L k).view.loc (V d (cV L) (jV L)) ↦[(oChunk L k).view.set]{fullShare} f : sProp 𝕄)
      = oLoc d ↦[oSet (chunkNo (cL L) (sL L) k)]{fullShare} f := by
  rw [set_oChunk]
omit [FloatOps F] in
theorem pts_b (s : Fin 7) (f : Buf (Elt F) (bLoc d L)) :
    ((slot s).view.loc (V d (cV L) (jV L)) ↦[(slot s).view.set]{fullShare} f : sProp 𝕄)
      = bLoc d L ↦[bSet s]{fullShare} f := by
  rw [set_slot]
omit [FloatOps F] in
theorem pts_e0 (f : Buf (Elt F) (eLoc d)) :
    ((eC0 L).view.loc (V d (cV L) (jV L)) ↦[(eC0 L).view.set]{fullShare} f : sProp 𝕄) = eLoc d ↦[eSet (chunkNo (cL L) (sL L) 0)]{fullShare} f := pts_e d L 0 f
omit [FloatOps F] in
theorem pts_o0 (f : Buf (Elt F) (oLoc d)) :
    ((oC0 L).view.loc (V d (cV L) (jV L)) ↦[(oC0 L).view.set]{fullShare} f : sProp 𝕄) = oLoc d ↦[oSet (chunkNo (cL L) (sL L) 0)]{fullShare} f := pts_o d L 0 f
omit [FloatOps F] in
theorem pts_e1 (f : Buf (Elt F) (eLoc d)) :
    ((eC1 L).view.loc (V d (cV L) (jV L)) ↦[(eC1 L).view.set]{fullShare} f : sProp 𝕄) = eLoc d ↦[eSet (chunkNo (cL L) (sL L) 1)]{fullShare} f := pts_e d L 1 f
omit [FloatOps F] in
theorem pts_o1 (f : Buf (Elt F) (oLoc d)) :
    ((oC1 L).view.loc (V d (cV L) (jV L)) ↦[(oC1 L).view.set]{fullShare} f : sProp 𝕄) = oLoc d ↦[oSet (chunkNo (cL L) (sL L) 1)]{fullShare} f := pts_o d L 1 f
omit [FloatOps F] in
theorem pts_e2 (f : Buf (Elt F) (eLoc d)) :
    ((eC2 L).view.loc (V d (cV L) (jV L)) ↦[(eC2 L).view.set]{fullShare} f : sProp 𝕄) = eLoc d ↦[eSet (chunkNo (cL L) (sL L) 2)]{fullShare} f := pts_e d L 2 f
omit [FloatOps F] in
theorem pts_o2 (f : Buf (Elt F) (oLoc d)) :
    ((oC2 L).view.loc (V d (cV L) (jV L)) ↦[(oC2 L).view.set]{fullShare} f : sProp 𝕄) = oLoc d ↦[oSet (chunkNo (cL L) (sL L) 2)]{fullShare} f := pts_o d L 2 f
omit [FloatOps F] in
theorem pts_e3 (f : Buf (Elt F) (eLoc d)) :
    ((eC3 L).view.loc (V d (cV L) (jV L)) ↦[(eC3 L).view.set]{fullShare} f : sProp 𝕄) = eLoc d ↦[eSet (chunkNo (cL L) (sL L) 3)]{fullShare} f := pts_e d L 3 f
omit [FloatOps F] in
theorem pts_o3 (f : Buf (Elt F) (oLoc d)) :
    ((oC3 L).view.loc (V d (cV L) (jV L)) ↦[(oC3 L).view.set]{fullShare} f : sProp 𝕄) = oLoc d ↦[oSet (chunkNo (cL L) (sL L) 3)]{fullShare} f := pts_o d L 3 f
omit [FloatOps F] in
theorem pts_e4 (f : Buf (Elt F) (eLoc d)) :
    ((eC4 L).view.loc (V d (cV L) (jV L)) ↦[(eC4 L).view.set]{fullShare} f : sProp 𝕄) = eLoc d ↦[eSet (chunkNo (cL L) (sL L) 4)]{fullShare} f := pts_e d L 4 f
omit [FloatOps F] in
theorem pts_o4 (f : Buf (Elt F) (oLoc d)) :
    ((oC4 L).view.loc (V d (cV L) (jV L)) ↦[(oC4 L).view.set]{fullShare} f : sProp 𝕄) = oLoc d ↦[oSet (chunkNo (cL L) (sL L) 4)]{fullShare} f := pts_o d L 4 f
omit [FloatOps F] in
theorem pts_e5 (f : Buf (Elt F) (eLoc d)) :
    ((eC5 L).view.loc (V d (cV L) (jV L)) ↦[(eC5 L).view.set]{fullShare} f : sProp 𝕄) = eLoc d ↦[eSet (chunkNo (cL L) (sL L) 5)]{fullShare} f := pts_e d L 5 f
omit [FloatOps F] in
theorem pts_o5 (f : Buf (Elt F) (oLoc d)) :
    ((oC5 L).view.loc (V d (cV L) (jV L)) ↦[(oC5 L).view.set]{fullShare} f : sProp 𝕄) = oLoc d ↦[oSet (chunkNo (cL L) (sL L) 5)]{fullShare} f := pts_o d L 5 f
omit [FloatOps F] in
theorem pts_e6 (f : Buf (Elt F) (eLoc d)) :
    ((eC6 L).view.loc (V d (cV L) (jV L)) ↦[(eC6 L).view.set]{fullShare} f : sProp 𝕄) = eLoc d ↦[eSet (chunkNo (cL L) (sL L) 6)]{fullShare} f := pts_e d L 6 f
omit [FloatOps F] in
theorem pts_o6 (f : Buf (Elt F) (oLoc d)) :
    ((oC6 L).view.loc (V d (cV L) (jV L)) ↦[(oC6 L).view.set]{fullShare} f : sProp 𝕄) = oLoc d ↦[oSet (chunkNo (cL L) (sL L) 6)]{fullShare} f := pts_o d L 6 f
omit [FloatOps F] in
theorem pts_e7 (f : Buf (Elt F) (eLoc d)) :
    ((eC7 L).view.loc (V d (cV L) (jV L)) ↦[(eC7 L).view.set]{fullShare} f : sProp 𝕄) = eLoc d ↦[eSet (chunkNo (cL L) (sL L) 7)]{fullShare} f := pts_e d L 7 f
omit [FloatOps F] in
theorem pts_o7 (f : Buf (Elt F) (oLoc d)) :
    ((oC7 L).view.loc (V d (cV L) (jV L)) ↦[(oC7 L).view.set]{fullShare} f : sProp 𝕄) = oLoc d ↦[oSet (chunkNo (cL L) (sL L) 7)]{fullShare} f := pts_o d L 7 f
omit [FloatOps F] in
theorem pts_e8 (f : Buf (Elt F) (eLoc d)) :
    ((eC8 L).view.loc (V d (cV L) (jV L)) ↦[(eC8 L).view.set]{fullShare} f : sProp 𝕄) = eLoc d ↦[eSet (chunkNo (cL L) (sL L) 8)]{fullShare} f := pts_e d L 8 f
omit [FloatOps F] in
theorem pts_o8 (f : Buf (Elt F) (oLoc d)) :
    ((oC8 L).view.loc (V d (cV L) (jV L)) ↦[(oC8 L).view.set]{fullShare} f : sProp 𝕄) = oLoc d ↦[oSet (chunkNo (cL L) (sL L) 8)]{fullShare} f := pts_o d L 8 f
omit [FloatOps F] in
theorem pts_e9 (f : Buf (Elt F) (eLoc d)) :
    ((eC9 L).view.loc (V d (cV L) (jV L)) ↦[(eC9 L).view.set]{fullShare} f : sProp 𝕄) = eLoc d ↦[eSet (chunkNo (cL L) (sL L) 9)]{fullShare} f := pts_e d L 9 f
omit [FloatOps F] in
theorem pts_o9 (f : Buf (Elt F) (oLoc d)) :
    ((oC9 L).view.loc (V d (cV L) (jV L)) ↦[(oC9 L).view.set]{fullShare} f : sProp 𝕄) = oLoc d ↦[oSet (chunkNo (cL L) (sL L) 9)]{fullShare} f := pts_o d L 9 f
omit [FloatOps F] in
theorem pts_e10 (f : Buf (Elt F) (eLoc d)) :
    ((eC10 L).view.loc (V d (cV L) (jV L)) ↦[(eC10 L).view.set]{fullShare} f : sProp 𝕄) = eLoc d ↦[eSet (chunkNo (cL L) (sL L) 10)]{fullShare} f := pts_e d L 10 f
omit [FloatOps F] in
theorem pts_o10 (f : Buf (Elt F) (oLoc d)) :
    ((oC10 L).view.loc (V d (cV L) (jV L)) ↦[(oC10 L).view.set]{fullShare} f : sProp 𝕄) = oLoc d ↦[oSet (chunkNo (cL L) (sL L) 10)]{fullShare} f := pts_o d L 10 f
omit [FloatOps F] in
theorem pts_e11 (f : Buf (Elt F) (eLoc d)) :
    ((eC11 L).view.loc (V d (cV L) (jV L)) ↦[(eC11 L).view.set]{fullShare} f : sProp 𝕄) = eLoc d ↦[eSet (chunkNo (cL L) (sL L) 11)]{fullShare} f := pts_e d L 11 f
omit [FloatOps F] in
theorem pts_o11 (f : Buf (Elt F) (oLoc d)) :
    ((oC11 L).view.loc (V d (cV L) (jV L)) ↦[(oC11 L).view.set]{fullShare} f : sProp 𝕄) = oLoc d ↦[oSet (chunkNo (cL L) (sL L) 11)]{fullShare} f := pts_o d L 11 f
omit [FloatOps F] in
theorem pts_e12 (f : Buf (Elt F) (eLoc d)) :
    ((eC12 L).view.loc (V d (cV L) (jV L)) ↦[(eC12 L).view.set]{fullShare} f : sProp 𝕄) = eLoc d ↦[eSet (chunkNo (cL L) (sL L) 12)]{fullShare} f := pts_e d L 12 f
omit [FloatOps F] in
theorem pts_o12 (f : Buf (Elt F) (oLoc d)) :
    ((oC12 L).view.loc (V d (cV L) (jV L)) ↦[(oC12 L).view.set]{fullShare} f : sProp 𝕄) = oLoc d ↦[oSet (chunkNo (cL L) (sL L) 12)]{fullShare} f := pts_o d L 12 f
omit [FloatOps F] in
theorem pts_e13 (f : Buf (Elt F) (eLoc d)) :
    ((eC13 L).view.loc (V d (cV L) (jV L)) ↦[(eC13 L).view.set]{fullShare} f : sProp 𝕄) = eLoc d ↦[eSet (chunkNo (cL L) (sL L) 13)]{fullShare} f := pts_e d L 13 f
omit [FloatOps F] in
theorem pts_o13 (f : Buf (Elt F) (oLoc d)) :
    ((oC13 L).view.loc (V d (cV L) (jV L)) ↦[(oC13 L).view.set]{fullShare} f : sProp 𝕄) = oLoc d ↦[oSet (chunkNo (cL L) (sL L) 13)]{fullShare} f := pts_o d L 13 f
omit [FloatOps F] in
theorem pts_e14 (f : Buf (Elt F) (eLoc d)) :
    ((eC14 L).view.loc (V d (cV L) (jV L)) ↦[(eC14 L).view.set]{fullShare} f : sProp 𝕄) = eLoc d ↦[eSet (chunkNo (cL L) (sL L) 14)]{fullShare} f := pts_e d L 14 f
omit [FloatOps F] in
theorem pts_o14 (f : Buf (Elt F) (oLoc d)) :
    ((oC14 L).view.loc (V d (cV L) (jV L)) ↦[(oC14 L).view.set]{fullShare} f : sProp 𝕄) = oLoc d ↦[oSet (chunkNo (cL L) (sL L) 14)]{fullShare} f := pts_o d L 14 f
omit [FloatOps F] in
theorem pts_e15 (f : Buf (Elt F) (eLoc d)) :
    ((eC15 L).view.loc (V d (cV L) (jV L)) ↦[(eC15 L).view.set]{fullShare} f : sProp 𝕄) = eLoc d ↦[eSet (chunkNo (cL L) (sL L) 15)]{fullShare} f := pts_e d L 15 f
omit [FloatOps F] in
theorem pts_o15 (f : Buf (Elt F) (oLoc d)) :
    ((oC15 L).view.loc (V d (cV L) (jV L)) ↦[(oC15 L).view.set]{fullShare} f : sProp 𝕄) = oLoc d ↦[oSet (chunkNo (cL L) (sL L) 15)]{fullShare} f := pts_o d L 15 f
omit [FloatOps F] in
theorem pts_b0 (f : Buf (Elt F) (bLoc d L)) :
    ((sl0).view.loc (V d (cV L) (jV L)) ↦[(sl0).view.set]{fullShare} f : sProp 𝕄) = bLoc d L ↦[bSet 0]{fullShare} f := pts_b d L 0 f
omit [FloatOps F] in
theorem pts_b1 (f : Buf (Elt F) (bLoc d L)) :
    ((sl1).view.loc (V d (cV L) (jV L)) ↦[(sl1).view.set]{fullShare} f : sProp 𝕄) = bLoc d L ↦[bSet 1]{fullShare} f := pts_b d L 1 f
omit [FloatOps F] in
theorem pts_b2 (f : Buf (Elt F) (bLoc d L)) :
    ((sl2).view.loc (V d (cV L) (jV L)) ↦[(sl2).view.set]{fullShare} f : sProp 𝕄) = bLoc d L ↦[bSet 2]{fullShare} f := pts_b d L 2 f
omit [FloatOps F] in
theorem pts_b3 (f : Buf (Elt F) (bLoc d L)) :
    ((sl3).view.loc (V d (cV L) (jV L)) ↦[(sl3).view.set]{fullShare} f : sProp 𝕄) = bLoc d L ↦[bSet 3]{fullShare} f := pts_b d L 3 f
omit [FloatOps F] in
theorem pts_b4 (f : Buf (Elt F) (bLoc d L)) :
    ((sl4).view.loc (V d (cV L) (jV L)) ↦[(sl4).view.set]{fullShare} f : sProp 𝕄) = bLoc d L ↦[bSet 4]{fullShare} f := pts_b d L 4 f
omit [FloatOps F] in
theorem pts_b5 (f : Buf (Elt F) (bLoc d L)) :
    ((sl5).view.loc (V d (cV L) (jV L)) ↦[(sl5).view.set]{fullShare} f : sProp 𝕄) = bLoc d L ↦[bSet 5]{fullShare} f := pts_b d L 5 f
omit [FloatOps F] in
theorem pts_b6 (f : Buf (Elt F) (bLoc d L)) :
    ((sl6).view.loc (V d (cV L) (jV L)) ↦[(sl6).view.set]{fullShare} f : sProp 𝕄) = bLoc d L ↦[bSet 6]{fullShare} f := pts_b d L 6 f

/-! ### The worker's own storage: fourteen semaphores and the scratch in seven slots -/

omit [FloatOps F] in
theorem dma_scoped (j : Fin 14) : (SemLoc.dma j : SemLoc sig).isScoped .scVector = true := by revert j; decide

def dmaCells (thr : Thread nD τ) : Finset (GSem nD τ sig) :=
  Finset.univ.map ⟨fun j : Fin 14 => ((thr, SemLoc.dma j) : GSem nD τ sig), fun _ _ e => SemLoc.dma.inj (Prod.mk.inj e).2⟩

omit [FloatOps F] in
theorem dmaCells_sub : dmaCells (V d (cV L) (jV L)) ⊆ ownCells (V d (cV L) (jV L)) := by
  intro g hg
  obtain ⟨j, -, rfl⟩ := Finset.mem_map.mp hg
  exact mem_ownCells.mpr ⟨rfl, dma_scoped j⟩

omit [FloatOps F] in
theorem ownSems0_V :
    (ownSems0 (V d (cV L) (jV L)) : sProp 𝕄)
      = iprop((semVal (V d (cV L) (jV L), SemLoc.dma inSem0) 0 ∗ semVal (V d (cV L) (jV L), SemLoc.dma inSem1) 0 ∗ semVal (V d (cV L) (jV L), SemLoc.dma inSem2) 0 ∗ semVal (V d (cV L) (jV L), SemLoc.dma inSem3) 0 ∗ semVal (V d (cV L) (jV L), SemLoc.dma inSem4) 0 ∗ semVal (V d (cV L) (jV L), SemLoc.dma inSem5) 0 ∗ semVal (V d (cV L) (jV L), SemLoc.dma inSem6) 0
          ∗ semVal (V d (cV L) (jV L), SemLoc.dma outSem0) 0 ∗ semVal (V d (cV L) (jV L), SemLoc.dma outSem1) 0 ∗ semVal (V d (cV L) (jV L), SemLoc.dma outSem2) 0 ∗ semVal (V d (cV L) (jV L), SemLoc.dma outSem3) 0 ∗ semVal (V d (cV L) (jV L), SemLoc.dma outSem4) 0 ∗ semVal (V d (cV L) (jV L), SemLoc.dma outSem5) 0 ∗ semVal (V d (cV L) (jV L), SemLoc.dma outSem6) 0)
          ∗ bigSep (ownCells (V d (cV L) (jV L)) \ dmaCells (V d (cV L) (jV L))) fun g => semVal g 0) := by
  unfold SparseCore.Cfg.ownSems0
  rw [SparseCore.bigSep_sdiff_split' (dmaCells_sub d L)]
  unfold dmaCells
  rw [bigSep_map, bigSep_fin14]
  rfl

omit [FloatOps F] in
theorem ownBufs_V :
    (ownBufs (V d (cV L) (jV L)) : sProp 𝕄)
      = iprop((∃ f, bLoc d L ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit [FloatOps F] in
theorem bPts_slots (f : Buf (Elt F) (bLoc d L)) :
    (bLoc d L ↦{fullShare} f : sProp 𝕄) = iprop((bLoc d L ↦[bSet 0]{fullShare} f) ∗ (bLoc d L ↦[bSet 1]{fullShare} f) ∗ (bLoc d L ↦[bSet 2]{fullShare} f) ∗ (bLoc d L ↦[bSet 3]{fullShare} f) ∗ (bLoc d L ↦[bSet 4]{fullShare} f) ∗ (bLoc d L ↦[bSet 5]{fullShare} f) ∗ (bLoc d L ↦[bSet 6]{fullShare} f)) := by
  rw [← bigSep_fin7 (fun s : Fin 7 => (bLoc d L ↦[bSet s]{fullShare} f : sProp 𝕄)),
    ← pointsTo_biUnion Finset.univ (ℓ := bLoc d L) bSet bSets_disjoint, bSets_cover]; try rfl

/-! ### What a chunk of the result ends holding -/

omit [FloatOps F] in
/-- Entry `x` of chunk `k` is the same row and column of the table and of the result's plane. -/
theorem emb_match (k : Fin 16) (x : S16x1024.Idx) :
    (eChunk L k).view.emb x = ValueIdx.ix2 (((oChunk L k).view.emb x) 1) (((oChunk L k).view.emb x) 2) := by
  obtain ⟨p, q, rfl⟩ : ∃ (p : Fin 16) (q : Fin 1024), x = ValueIdx.ix2 p q := ⟨x 0, x 1, ValueIdx.eq_ix2 x⟩
  have e3 : (oChunk L k).view.emb (ValueIdx.ix2 p q)
      = (Rect.unit (s := S1x8192x1024) (k0_off2 L (BitVec.ofNat 32 (16 * k.val))) S1x16x1024.size (k0_off2_inb L k)).emb
          (ValueIdx.ix3 (⟨0, Nat.one_pos⟩ : Fin 1) p q) := by
    show (Rect.unit (s := S1x8192x1024) (k0_off2 L (BitVec.ofNat 32 (16 * k.val))) S1x16x1024.size (k0_off2_inb L k)).emb
      (Shape.reshapeEquiv squeezes_S1x16x1024_S16x1024.numel_eq (ValueIdx.ix2 p q)) = _
    rw [ValueIdx.reshapeEquiv_ix2_1ab]
  rw [e3]
  funext a; apply Fin.ext
  match a with
  | ⟨0, _⟩ =>
    show (k0_off1 L (BitVec.ofNat 32 (16 * k.val))) 0 + 1 * p.val = (k0_off2 L (BitVec.ofNat 32 (16 * k.val))) 1 + 1 * p.val
    rw [k0_off1_eq, k0_off2_eq]; rfl
  | ⟨1, _⟩ =>
    show (k0_off1 L (BitVec.ofNat 32 (16 * k.val))) 1 + 1 * q.val = (k0_off2 L (BitVec.ofNat 32 (16 * k.val))) 2 + 1 * q.val
    rw [k0_off1_eq, k0_off2_eq]; rfl

/-- A chunk of the result over which the matching chunk of the table has been written whole holds the wanted entries. -/
theorem chunk_lands (k : Fin 16) (g : Buf (Elt F) (oLoc d)) (pay : S16x1024.Idx → Elt F .f32)
    (hpay : ∀ x, pay x = (eChunk L k).view.read (Elt F) (m (eLoc d)) x) :
    ((oChunk L k).view.loc (V d (cV L) (jV L)) ↦[(oChunk L k).view.set]{fullShare}
        (oChunk L k).view.writes (Elt F) g [⟨Rect.whole S16x1024, pay⟩] : sProp 𝕄)
      = oLoc d ↦[oSet (chunkNo (cL L) (sL L) k)]{fullShare} want m d := by
  rw [pts_o]
  refine pointsTo_congr fun i hi => ?_
  rw [← set_oChunk] at hi
  obtain ⟨x, -, rfl⟩ := Finset.mem_map.mp hi
  have h1 := View.read_writes_cons_emb (oChunk L k).view g (Rect.whole S16x1024) pay [] x
  rw [Rect.emb_whole_apply] at h1
  have h2 : (oChunk L k).view.read (Elt F) ((oChunk L k).view.writes (Elt F) g [⟨Rect.whole S16x1024, pay⟩]) x
      = (oChunk L k).view.writes (Elt F) g [⟨Rect.whole S16x1024, pay⟩] ((oChunk L k).view.emb x) :=
    (View.read_apply _ _).trans (cast_eq _ _)
  have h3 : (eChunk L k).view.read (Elt F) (m (eLoc d)) x = m (eLoc d) ((eChunk L k).view.emb x) :=
    (View.read_apply _ _).trans (cast_eq _ _)
  rw [← h2, h1, hpay x, h3, emb_match]
  rfl

omit [FloatOps F] in
/-- A slot over which a chunk has just been written whole hands that chunk on, whatever it held before. -/
theorem relay (v : View sig .scVector .vmem S16x1024 .f32) (fb : v.ty.Contents (Elt F)) (src : S16x1024.Idx → Elt F .f32)
    (rest : List (View.Piece (Elt F) S16x1024 .f32)) (x : S16x1024.Idx) :
    ReadAs.same.apply (v.read (Elt F) (v.writes (Elt F) fb (⟨Rect.whole S16x1024, ReadAs.same.apply src⟩ :: rest))) x = src x := by
  have h := View.read_writes_cons_emb v fb (Rect.whole S16x1024) (ReadAs.same.apply src) rest x
  rwa [Rect.emb_whole_apply] at h

omit [FloatOps F] in
/-- Seven slots, each holding anything, are the scratch holding something. -/
theorem slots_join (f0 f1 f2 f3 f4 f5 f6 : Buf (Elt F) (bLoc d L)) :
    iprop((bLoc d L ↦[bSet 0]{fullShare} f0) ∗ (bLoc d L ↦[bSet 1]{fullShare} f1) ∗ (bLoc d L ↦[bSet 2]{fullShare} f2) ∗ (bLoc d L ↦[bSet 3]{fullShare} f3) ∗ (bLoc d L ↦[bSet 4]{fullShare} f4) ∗ (bLoc d L ↦[bSet 5]{fullShare} f5) ∗ (bLoc d L ↦[bSet 6]{fullShare} f6)) ⊢ (iprop(∃ g, bLoc d L ↦{fullShare} g) : sProp 𝕄) := by
  refine (Entails.of_eq (bigSep_fin7 (F := F) (fun s : Fin 7 => (bLoc d L ↦[bSet s]{fullShare} (![f0, f1, f2, f3, f4, f5, f6] s) : sProp 𝕄))).symm).trans ?_
  iintro H
  ihave H' := (pointsTo_biUnion_join Finset.univ bSet ![f0, f1, f2, f3, f4, f5, f6] f0 bSets_disjoint) $$ H
  icases H' with ⟨%g, -, Hg⟩
  rw [bSets_cover]
  iexists g; iexact Hg

omit [FloatOps F] in
/-- A wait recorded at the kernels' own index keeps the record admissible. -/
theorem ins_ok {W W₁ : Waits sig (HIx 1)} (s : SemLoc sig) (h : ∀ p ∈ W₁, p ∈ W ∨ p.2 = none) :
    ∀ p ∈ insert (s, (default : HIx 1)) W₁, p ∈ W ∨ p.2 = none := by
  intro p hp
  rcases Finset.mem_insert.mp hp with rfl | hp
  · exact .inr rfl
  · exact h p hp

/-- The worker at grid point `L` of device `d`. -/
theorem tile_body (hF : (K (F := F)).Facts) (O : CellTallies nD τ sig (HIx 1)) (W : Waits sig (HIx 1)) (hO : ∀ g, O g none = 0) :
    iprop(levAts (K (F := F)).L (K (F := F)).lev ∗ emp
        ∗ (bigSep Finset.univ fun k : Fin 16 => iprop(eChunkPts m d (chunkNo (cL L) (sL L) k) ∗ oChunkPts d (chunkNo (cL L) (sL L) k) (m (oLoc d))))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__copy_body L eW (Memref.isWhole_whole _) oW (Memref.isWhole_whole _) bW (Memref.isWhole_whole _) cc0_scratch1 cc0_scratch2)
          fun _ => iprop((bigSep Finset.univ fun k : Fin 16 => iprop(eChunkPts m d (chunkNo (cL L) (sL L) k) ∗ oChunkPts d (chunkNo (cL L) (sL L) k) (want m d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__copy_body_eq_skeleton]; unfold cc0__copy_body_skel
  rw [(K (F := F)).scopedBufs_V hF d (cV L) (jV L), SparseCore.Cfg.scopedSems0_V (Val := Elt F) d (cV L) (jV L), ownSems0_V, ownBufs_V,
    bigSep_fin16, bigSep_fin16]
  iintro ⟨#Hlv, -, ⟨⟨He0, Ho0⟩, ⟨He1, Ho1⟩, ⟨He2, Ho2⟩, ⟨He3, Ho3⟩, ⟨He4, Ho4⟩, ⟨He5, Ho5⟩, ⟨He6, Ho6⟩, ⟨He7, Ho7⟩, ⟨He8, Ho8⟩, ⟨He9, Ho9⟩, ⟨He10, Ho10⟩, ⟨He11, Ho11⟩, ⟨He12, Ho12⟩, ⟨He13, Ho13⟩, ⟨He14, Ho14⟩, ⟨He15, Ho15⟩⟩, ⟨⟨%fb, Hb⟩, Hbufs⟩, ⟨⟨Hi0, Hi1, Hi2, Hi3, Hi4, Hi5, Hi6, Hw0, Hw1, Hw2, Hw3, Hw4, Hw5, Hw6⟩, Hsems⟩, HO⟩
  ihave Hb' := (Entails.of_eq (bPts_slots (F := F) d L fb)) $$ Hb
  icases Hb' with ⟨Hb0, Hb1, Hb2, Hb3, Hb4, Hb5, Hb6⟩
  ihave Hmw := ((K (F := F)).mayWaits_none (thr := V d (cV L) (jV L)) hO) $$ Hlv
  ihave He0 := (Entails.of_eq (pts_e0 (F := F) d L _).symm) $$ He0
  ihave Ho0 := (Entails.of_eq (pts_o0 (F := F) d L _).symm) $$ Ho0
  ihave He1 := (Entails.of_eq (pts_e1 (F := F) d L _).symm) $$ He1
  ihave Ho1 := (Entails.of_eq (pts_o1 (F := F) d L _).symm) $$ Ho1
  ihave He2 := (Entails.of_eq (pts_e2 (F := F) d L _).symm) $$ He2
  ihave Ho2 := (Entails.of_eq (pts_o2 (F := F) d L _).symm) $$ Ho2
  ihave He3 := (Entails.of_eq (pts_e3 (F := F) d L _).symm) $$ He3
  ihave Ho3 := (Entails.of_eq (pts_o3 (F := F) d L _).symm) $$ Ho3
  ihave He4 := (Entails.of_eq (pts_e4 (F := F) d L _).symm) $$ He4
  ihave Ho4 := (Entails.of_eq (pts_o4 (F := F) d L _).symm) $$ Ho4
  ihave He5 := (Entails.of_eq (pts_e5 (F := F) d L _).symm) $$ He5
  ihave Ho5 := (Entails.of_eq (pts_o5 (F := F) d L _).symm) $$ Ho5
  ihave He6 := (Entails.of_eq (pts_e6 (F := F) d L _).symm) $$ He6
  ihave Ho6 := (Entails.of_eq (pts_o6 (F := F) d L _).symm) $$ Ho6
  ihave He7 := (Entails.of_eq (pts_e7 (F := F) d L _).symm) $$ He7
  ihave Ho7 := (Entails.of_eq (pts_o7 (F := F) d L _).symm) $$ Ho7
  ihave He8 := (Entails.of_eq (pts_e8 (F := F) d L _).symm) $$ He8
  ihave Ho8 := (Entails.of_eq (pts_o8 (F := F) d L _).symm) $$ Ho8
  ihave He9 := (Entails.of_eq (pts_e9 (F := F) d L _).symm) $$ He9
  ihave Ho9 := (Entails.of_eq (pts_o9 (F := F) d L _).symm) $$ Ho9
  ihave He10 := (Entails.of_eq (pts_e10 (F := F) d L _).symm) $$ He10
  ihave Ho10 := (Entails.of_eq (pts_o10 (F := F) d L _).symm) $$ Ho10
  ihave He11 := (Entails.of_eq (pts_e11 (F := F) d L _).symm) $$ He11
  ihave Ho11 := (Entails.of_eq (pts_o11 (F := F) d L _).symm) $$ Ho11
  ihave He12 := (Entails.of_eq (pts_e12 (F := F) d L _).symm) $$ He12
  ihave Ho12 := (Entails.of_eq (pts_o12 (F := F) d L _).symm) $$ Ho12
  ihave He13 := (Entails.of_eq (pts_e13 (F := F) d L _).symm) $$ He13
  ihave Ho13 := (Entails.of_eq (pts_o13 (F := F) d L _).symm) $$ Ho13
  ihave He14 := (Entails.of_eq (pts_e14 (F := F) d L _).symm) $$ He14
  ihave Ho14 := (Entails.of_eq (pts_o14 (F := F) d L _).symm) $$ Ho14
  ihave He15 := (Entails.of_eq (pts_e15 (F := F) d L _).symm) $$ He15
  ihave Ho15 := (Entails.of_eq (pts_o15 (F := F) d L _).symm) $$ Ho15
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  ihave Hb3 := (Entails.of_eq (pts_b3 (F := F) d L _).symm) $$ Hb3
  ihave Hb4 := (Entails.of_eq (pts_b4 (F := F) d L _).symm) $$ Hb4
  ihave Hb5 := (Entails.of_eq (pts_b5 (F := F) d L _).symm) $$ Hb5
  ihave Hb6 := (Entails.of_eq (pts_b6 (F := F) d L _).symm) $$ Hb6
  sl_exec
  sl_step
  -- the sixteen chunks: the table's as they were, the result's holding the table's rows
  isplitl [He0 Ho0 He1 Ho1 He2 Ho2 He3 Ho3 He4 Ho4 He5 Ho5 He6 Ho6 He7 Ho7 He8 Ho8 He9 Ho9 He10 Ho10 He11 Ho11 He12 Ho12 He13 Ho13 He14 Ho14 He15 Ho15]
  · isplitl [He0 Ho0]
    · isplitl [He0]
      · iapply (Entails.of_eq (pts_e0 (F := F) d L _)); iexact He0
      · iapply (Entails.of_eq (chunk_lands m d L 0 _ _ (fun x => relay _ _ _ _ x))); iexact Ho0
    isplitl [He1 Ho1]
    · isplitl [He1]
      · iapply (Entails.of_eq (pts_e1 (F := F) d L _)); iexact He1
      · iapply (Entails.of_eq (chunk_lands m d L 1 _ _ (fun x => relay _ _ _ _ x))); iexact Ho1
    isplitl [He2 Ho2]
    · isplitl [He2]
      · iapply (Entails.of_eq (pts_e2 (F := F) d L _)); iexact He2
      · iapply (Entails.of_eq (chunk_lands m d L 2 _ _ (fun x => relay _ _ _ _ x))); iexact Ho2
    isplitl [He3 Ho3]
    · isplitl [He3]
      · iapply (Entails.of_eq (pts_e3 (F := F) d L _)); iexact He3
      · iapply (Entails.of_eq (chunk_lands m d L 3 _ _ (fun x => relay _ _ _ _ x))); iexact Ho3
    isplitl [He4 Ho4]
    · isplitl [He4]
      · iapply (Entails.of_eq (pts_e4 (F := F) d L _)); iexact He4
      · iapply (Entails.of_eq (chunk_lands m d L 4 _ _ (fun x => relay _ _ _ _ x))); iexact Ho4
    isplitl [He5 Ho5]
    · isplitl [He5]
      · iapply (Entails.of_eq (pts_e5 (F := F) d L _)); iexact He5
      · iapply (Entails.of_eq (chunk_lands m d L 5 _ _ (fun x => relay _ _ _ _ x))); iexact Ho5
    isplitl [He6 Ho6]
    · isplitl [He6]
      · iapply (Entails.of_eq (pts_e6 (F := F) d L _)); iexact He6
      · iapply (Entails.of_eq (chunk_lands m d L 6 _ _ (fun x => relay _ _ _ _ x))); iexact Ho6
    isplitl [He7 Ho7]
    · isplitl [He7]
      · iapply (Entails.of_eq (pts_e7 (F := F) d L _)); iexact He7
      · iapply (Entails.of_eq (chunk_lands m d L 7 _ _ (fun x => relay _ _ _ _ x))); iexact Ho7
    isplitl [He8 Ho8]
    · isplitl [He8]
      · iapply (Entails.of_eq (pts_e8 (F := F) d L _)); iexact He8
      · iapply (Entails.of_eq (chunk_lands m d L 8 _ _ (fun x => relay _ _ _ _ x))); iexact Ho8
    isplitl [He9 Ho9]
    · isplitl [He9]
      · iapply (Entails.of_eq (pts_e9 (F := F) d L _)); iexact He9
      · iapply (Entails.of_eq (chunk_lands m d L 9 _ _ (fun x => relay _ _ _ _ x))); iexact Ho9
    isplitl [He10 Ho10]
    · isplitl [He10]
      · iapply (Entails.of_eq (pts_e10 (F := F) d L _)); iexact He10
      · iapply (Entails.of_eq (chunk_lands m d L 10 _ _ (fun x => relay _ _ _ _ x))); iexact Ho10
    isplitl [He11 Ho11]
    · isplitl [He11]
      · iapply (Entails.of_eq (pts_e11 (F := F) d L _)); iexact He11
      · iapply (Entails.of_eq (chunk_lands m d L 11 _ _ (fun x => relay _ _ _ _ x))); iexact Ho11
    isplitl [He12 Ho12]
    · isplitl [He12]
      · iapply (Entails.of_eq (pts_e12 (F := F) d L _)); iexact He12
      · iapply (Entails.of_eq (chunk_lands m d L 12 _ _ (fun x => relay _ _ _ _ x))); iexact Ho12
    isplitl [He13 Ho13]
    · isplitl [He13]
      · iapply (Entails.of_eq (pts_e13 (F := F) d L _)); iexact He13
      · iapply (Entails.of_eq (chunk_lands m d L 13 _ _ (fun x => relay _ _ _ _ x))); iexact Ho13
    isplitl [He14 Ho14]
    · isplitl [He14]
      · iapply (Entails.of_eq (pts_e14 (F := F) d L _)); iexact He14
      · iapply (Entails.of_eq (chunk_lands m d L 14 _ _ (fun x => relay _ _ _ _ x))); iexact Ho14
    isplitl [He15]
    · iapply (Entails.of_eq (pts_e15 (F := F) d L _)); iexact He15
    · iapply (Entails.of_eq (chunk_lands m d L 15 _ _ (fun x => relay _ _ _ _ x))); iexact Ho15
  -- the scratch, whatever its slots hold, and the rest of the worker's own buffers
  isplitl [Hb0 Hb1 Hb2 Hb3 Hb4 Hb5 Hb6 Hbufs]
  · isplitl [Hb0 Hb1 Hb2 Hb3 Hb4 Hb5 Hb6]
    · ihave Hb0 := (Entails.of_eq (pts_b0 (F := F) d L _)) $$ Hb0
      ihave Hb1 := (Entails.of_eq (pts_b1 (F := F) d L _)) $$ Hb1
      ihave Hb2 := (Entails.of_eq (pts_b2 (F := F) d L _)) $$ Hb2
      ihave Hb3 := (Entails.of_eq (pts_b3 (F := F) d L _)) $$ Hb3
      ihave Hb4 := (Entails.of_eq (pts_b4 (F := F) d L _)) $$ Hb4
      ihave Hb5 := (Entails.of_eq (pts_b5 (F := F) d L _)) $$ Hb5
      ihave Hb6 := (Entails.of_eq (pts_b6 (F := F) d L _)) $$ Hb6
      iapply (slots_join d L _ _ _ _ _ _ _)
      isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      iexact Hb6
    · iexact Hbufs
  -- the semaphores, back at zero
  isplitl [Hi0 Hi1 Hi2 Hi3 Hi4 Hi5 Hi6 Hw0 Hw1 Hw2 Hw3 Hw4 Hw5 Hw6 Hsems]
  · isplitl [Hi0 Hi1 Hi2 Hi3 Hi4 Hi5 Hi6 Hw0 Hw1 Hw2 Hw3 Hw4 Hw5 Hw6]
    · isplitl [Hi0]; · iexact Hi0
      isplitl [Hi1]; · iexact Hi1
      isplitl [Hi2]; · iexact Hi2
      isplitl [Hi3]; · iexact Hi3
      isplitl [Hi4]; · iexact Hi4
      isplitl [Hi5]; · iexact Hi5
      isplitl [Hi6]; · iexact Hi6
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      iexact Hw6
    · iexact Hsems
  iexists _
  isplitr
  rotate_left
  · iexact HO
  · ipureintro
    iterate 32 refine ins_ok _ ?_
    exact fun p hp => .inl hp

end Tile

end Cert.KernelIdeal.Copy

end
-- ==== Proof.IdealLaunch.lean ====
/-
  The launch. The table and the result are handed to the two SparseCores as the 512 chunks (rows 16·g … 16·g + 15 of
  each), every worker receiving its own sixteen of both; a worker returns its chunks of the table as they were and its
  chunks of the result holding the table's rows. Since the 512 chunks are disjoint and cover both arrays, what comes
  back is the table unchanged and the result equal, entry by entry, to the table under a leading axis of extent one.
  The token ids are never handed to anyone. No worker signals another: the only ghost state is the launch's handshakes
  and the transfers' counters.
-/
import proofs.«202656_g558345749078_cont_9to1c4b_557_14_alg».proof.KernelIdeal
import proofs.«202656_g558345749078_cont_9to1c4b_557_14_alg».proof.Proof.Gen.KernelIdeal
import proofs.«202656_g558345749078_cont_9to1c4b_557_14_alg».proof.Proof.Gen.KernelIdeal.Skeleton
import Idealize.ShloMosaic.Lib.SparseCore.Launch
import Idealize.ShloMosaic.Lib.SparseCore.Ops
import Idealize.ShloMosaic.Lib.Pipeline.Kit
import Idealize.ShloMosaic.Lib.Tactic
import proofs.«202656_g558345749078_cont_9to1c4b_557_14_alg».proof.Proof.Spec
import proofs.«202656_g558345749078_cont_9to1c4b_557_14_alg».proof.Proof.IdealChunks
import proofs.«202656_g558345749078_cont_9to1c4b_557_14_alg».proof.Proof.IdealTile
import Idealize.ShloMosaic.Lib.StableHlo.Run

noncomputable section

namespace Cert.KernelIdeal.Copy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

variable [FloatOps F]

/-! ## What the handshakes carry -/

abbrev xPts (d : Dev nD) : sProp 𝕄 := xLoc d ↦{fullShare} m (xLoc d)
abbrev ePts (d : Dev nD) : sProp 𝕄 := eLoc d ↦{fullShare} m (eLoc d)
abbrev oPts (d : Dev nD) (f : Buf (Elt F) (oLoc d)) : sProp 𝕄 := oLoc d ↦{fullShare} f

/-- Worker `(c, s)`'s sixteen chunks of the table and of the result: the result's as launched, and as the worker leaves them. -/
abbrev tileIn (d : Dev nD) (c : Fin 2) (s : Fin 16) : sProp 𝕄 :=
  bigSep Finset.univ fun k : Fin 16 => iprop(eChunkPts m d (chunkNo c s k) ∗ oChunkPts d (chunkNo c s k) (m (oLoc d)))
abbrev tileOut (d : Dev nD) (c : Fin 2) (s : Fin 16) : sProp 𝕄 :=
  bigSep Finset.univ fun k : Fin 16 => iprop(eChunkPts m d (chunkNo c s k) ∗ oChunkPts d (chunkNo c s k) (want m d))

/-- The one call hands SparseCore `c` its sixteen workers' chunks, each worker its own, and brings them back. -/
def P : (K (F := F)).Pay (nD := nD) (Val := Elt F) (Name := ℕ) (U := UU) where
  st := fun q d c => match q with | 0 => bigSep Finset.univ fun i : Fin 16 => tileIn m d (Fin.cast nCore_zero c) i
  dn := fun q d c => match q with | 0 => bigSep Finset.univ fun i : Fin 16 => tileOut m d (Fin.cast nCore_zero c) i
  go := fun q d c i => match q with | 0 => tileIn m d (Fin.cast nCore_zero c) (Fin.cast nSub_zero i)
  td := fun q d c i => match q with | 0 => tileOut m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => tileIn m d (Fin.cast nCore_zero c) i))
  dn q d c := match q with
    | 0 => (inferInstance : BI.Storable (upEmb : UEmb _ 𝕄) (bigSep Finset.univ fun i : Fin 16 => tileOut m d (Fin.cast nCore_zero c) i))
  go q d c i := match q with
    | 0 => (inferInstance : BI.Storable (upEmb : UEmb _ 𝕄) (tileIn m d (Fin.cast nCore_zero c) (Fin.cast nSub_zero i)))
  td q d c i := match q with
    | 0 => (inferInstance : BI.Storable (upEmb : UEmb _ 𝕄) (tileOut m d (Fin.cast nCore_zero c) (Fin.cast nSub_zero i)))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__copy_body (coordsV c s)
          eW (Memref.isWhole_whole _) oW (Memref.isWhole_whole _) bW (Memref.isWhole_whole _) cc0_scratch1 cc0_scratch2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- the workers owe nothing for a protocol of their own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun i : Fin 16 => tileIn m d (Fin.cast nCore_zero c) i) ⊢ |={Set.univ}=> iprop(
      (bigSep Finset.univ fun i : Fin ((K (F := F)).nSub 0) => tileIn m d (Fin.cast nCore_zero c) (Fin.cast nSub_zero i))
      ∗ ((bigSep Finset.univ fun i : Fin ((K (F := F)).nSub 0) => tileOut m d (Fin.cast nCore_zero c) (Fin.cast nSub_zero i))
          -∗ bigSep Finset.univ fun i : Fin 16 => tileOut m d (Fin.cast nCore_zero c) i))
  rw [bigSep_tasks (F := F) (fun i => tileIn m d (Fin.cast nCore_zero c) i), bigSep_tasks (F := F) (fun i => tileOut m d (Fin.cast nCore_zero c) i)]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## An array is its 512 chunks; the chunks by worker -/

omit [FloatOps F] in
theorem ePts_chunks (d : Dev nD) (f : Buf (Elt F) (eLoc d)) :
    (eLoc d ↦{fullShare} f : sProp 𝕄) = bigSep Finset.univ fun g : Fin 512 => eLoc d ↦[eSet g]{fullShare} f := by
  rw [← pointsTo_biUnion Finset.univ (ℓ := eLoc d) eSet eSets_disjoint, eSets_cover]; try rfl
omit [FloatOps F] in
theorem oPts_chunks (d : Dev nD) (f : Buf (Elt F) (oLoc d)) :
    (oLoc d ↦{fullShare} f : sProp 𝕄) = bigSep Finset.univ fun g : Fin 512 => oLoc d ↦[oSet g]{fullShare} f := by
  rw [← pointsTo_biUnion Finset.univ (ℓ := oLoc d) oSet oSets_disjoint, oSets_cover]; try rfl

/-- The 512 chunks, listed worker by worker. -/
def chunkEquiv : Fin 2 × Fin 16 × Fin 16 ≃ Fin 512 :=
  Equiv.ofBijective (fun p => chunkNo p.1 p.2.1 p.2.2)
    ⟨fun p p' h => by
      obtain ⟨h1, h2, h3⟩ := chunkNo_inj h
      exact Prod.ext h1 (Prod.ext h2 h3),
    fun g => by
      obtain ⟨c, s, k, h⟩ := chunkNo_surj g
      exact ⟨(c, s, k), h⟩⟩

omit [FloatOps F] in
theorem bigSep_chunks (Φ : Fin 512 → sProp 𝕄) :
    bigSep Finset.univ Φ
      = bigSep Finset.univ fun c : Fin 2 => bigSep Finset.univ fun s : Fin 16 => bigSep Finset.univ fun k : Fin 16 => Φ (chunkNo c s k) := by
  rw [bigSep_univ_equiv chunkEquiv Φ, bigSep_univ_prod]
  refine bigSep_congr fun c _ => ?_
  rw [bigSep_univ_prod]
  rfl

omit [FloatOps F] in
theorem arrays_chunks (d : Dev nD) (fe : Buf (Elt F) (eLoc d)) (fo : Buf (Elt F) (oLoc d)) :
    (iprop((eLoc d ↦{fullShare} fe) ∗ oLoc d ↦{fullShare} fo) : sProp 𝕄)
      = bigSep Finset.univ fun c : Fin 2 => bigSep Finset.univ fun s : Fin 16 => bigSep Finset.univ fun k : Fin 16 =>
          iprop((eLoc d ↦[eSet (chunkNo c s k)]{fullShare} fe) ∗ oLoc d ↦[oSet (chunkNo c s k)]{fullShare} fo) := by
  rw [ePts_chunks, oPts_chunks, ← bigSep_sep',
    bigSep_chunks (fun g => iprop((eLoc d ↦[eSet g]{fullShare} fe) ∗ oLoc d ↦[oSet g]{fullShare} fo))]

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (eLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = iprop(ePts m d ∗ oPts d (m (oLoc d))) := by
  show (bigSep Finset.univ fun c : Fin ((K (F := F)).nCore 0) => bigSep Finset.univ fun i : Fin 16 => tileIn m d (Fin.cast nCore_zero c) i) = _
  rw [bigSep_cores (F := F) (fun c => bigSep Finset.univ fun i : Fin 16 => tileIn m d c i)]
  exact (arrays_chunks d (m (eLoc d)) (m (oLoc d))).symm
theorem dn0_eq (d : Dev nD) : (bigSep Finset.univ fun c : Fin ((K (F := F)).nCore 0) => (P m).dn 0 d c) = iprop(ePts m d ∗ oPts d (want m d)) := by
  show (bigSep Finset.univ fun c : Fin ((K (F := F)).nCore 0) => bigSep Finset.univ fun i : Fin 16 => tileOut m d (Fin.cast nCore_zero c) i) = _
  rw [bigSep_cores (F := F) (fun c => bigSep Finset.univ fun i : Fin 16 => tileOut m d c i)]
  exact (arrays_chunks d (m (eLoc d)) (want m d)).symm

/-- What @main leaves the claim: the token ids and the table as launched, the result holding the table's rows. -/
abbrev FIN (d : Dev nD) : sProp 𝕄 := iprop(xPts m d ∗ ePts m d ∗ oPts d (want m d))

/-- @main on device `d`'s TensorCore: the one call, from the table and the result; the token ids stay where they are. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, He, Ho⟩, -, -⟩, -⟩
  iapply ((K (F := F)).wp_run (D (F := F)) 𝒱 (EH := EH) (P := P m) κ d 0) $$ [Hst Hx He Ho]
  isplitr; · iexact Hctx
  isplitl [Hst]; · iexact Hst
  isplitl [He Ho]
  · rw [st0_eq]
    isplitl [He]; · iexact He
    iexact Ho
  iintro ⟨Hst, Hdn⟩
  ihave Hdn' := (Entails.of_eq (dn0_eq m d)) $$ Hdn
  icases Hdn' with ⟨He, Ho⟩
  imodintro
  isplitl [Hst]; · iexact Hst
  isplitl [Hx]; · iexact Hx
  isplitl [He]; · iexact He
  iexact Ho

def fq (d : Dev nD) (s' : Phys nD τ sig (Elt F)) : Prop :=
  s'.mem.mem (oLoc d) = want m d ∧ s'.mem.mem (xLoc d) = m (xLoc d) ∧ s'.mem.mem (eLoc d) = m (eLoc d)

theorem hfin (d : Dev nD) (s' : Phys nD τ sig (Elt F)) : iprop(FIN m d ∗ SI s') ⊢ (⌜fq m d s'⌝ : sProp 𝕄) := by
  iintro ⟨⟨Hx, He, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h2, HSI, -⟩
  ihave H := (SI_pointsTo_agree (st := s') (ℓ := oLoc d) (I := Finset.univ) (q := fullShare) (f := want m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every device ends with the result holding the table's rows and both arguments as launched. -/
def QC : PUnit × MemSt nD τ sig (Elt F) → Prop := fun r => ∀ c : Dev nD,
  r.2.mem (oLoc c) = want m c ∧ r.2.mem (xLoc c) = m (xLoc c) ∧ r.2.mem (eLoc c) = m (eLoc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.KernelIdeal.Copy

end
-- ==== Proof.BitsChunks.lean ====
/-
  The geometry of the copy. The table has 8192 rows of 1024 entries; it is cut into 512 chunks of sixteen
  consecutive rows. The worker at grid point (c, s) — SparseCore c, vector subcore s — has number 2·s + c and moves the
  sixteen chunks 16·(2·s + c) … 16·(2·s + c) + 15, so the 32 workers' chunks are pairwise disjoint and together are every
  row. Chunk number g of the table is rows 16·g … 16·g + 15, and the same rows of the result's one plane. A worker's
  scratch has seven slots of sixteen rows. This module names those sets, the memrefs the body slices for them, and
  shows that each memref's elements are exactly its set.
-/
import proofs.«202656_g558345749078_cont_9to1c4b_557_14_alg».proof.Kernel
import proofs.«202656_g558345749078_cont_9to1c4b_557_14_alg».proof.Proof.Gen.Kernel
import proofs.«202656_g558345749078_cont_9to1c4b_557_14_alg».proof.Proof.Gen.Kernel.Skeleton
import Idealize.ShloMosaic.Lib.SparseCore.Launch
import Idealize.ShloMosaic.Lib.SparseCore.Ops
import Idealize.ShloMosaic.Lib.Pipeline.Kit
import Idealize.ShloMosaic.Lib.Tactic
import proofs.«202656_g558345749078_cont_9to1c4b_557_14_alg».proof.Proof.Spec

noncomputable section

namespace Cert.Kernel.Copy

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Arrays, threads, chunk numbers -/

/-- The token ids (never read), the table and the result, as locations of device `d`. -/
abbrev xLoc (d : Dev nD) : Loc nD τ sig := (SparseCore.T d).loc main_arg0
abbrev eLoc (d : Dev nD) : Loc nD τ sig := (SparseCore.T d).loc main_arg1
abbrev oLoc (d : Dev nD) : Loc nD τ sig := (SparseCore.T d).loc main_v0

abbrev eW : Memref sig .scVector .hbm S8192x1024 .f32 := Memref.whole main_arg1_scv
abbrev oW : Memref sig .scVector .hbm S1x8192x1024 .f32 := Memref.whole main_v0_scv
abbrev bW : Memref sig .scVector .vmem S7x16x1024 .f32 := Memref.whole cc0_scratch0

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

/-- Chunk `k` of worker `(c, s)` is chunk `32·s + 16·c + k` of the table. -/
def chunkNo (c : Fin 2) (s : Fin 16) (k : Fin 16) : Fin 512 :=
  ⟨32 * s.val + 16 * c.val + k.val, by have := c.isLt; have := s.isLt; have := k.isLt; omega⟩

theorem chunkNo_val (c : Fin 2) (s : Fin 16) (k : Fin 16) : (chunkNo c s k).val = 32 * s.val + 16 * c.val + k.val := rfl

/-- Every chunk of the table is some worker's, -/
theorem chunkNo_surj (g : Fin 512) : ∃ c s k, chunkNo c s k = g := by
  have hg := g.isLt
  refine ⟨⟨(g.val / 16) % 2, by omega⟩, ⟨g.val / 32, by omega⟩, ⟨g.val % 16, by omega⟩, Fin.ext ?_⟩
  show 32 * (g.val / 32) + 16 * ((g.val / 16) % 2) + g.val % 16 = g.val
  omega
/-- and of one worker only. -/
theorem chunkNo_inj {c c' : Fin 2} {s s' : Fin 16} {k k' : Fin 16} (h : chunkNo c s k = chunkNo c' s' k') : c = c' ∧ s = s' ∧ k = k' := by
  have h' : 32 * s.val + 16 * c.val + k.val = 32 * s'.val + 16 * c'.val + k'.val := congrArg Fin.val h
  have := c.isLt; have := c'.isLt; have := k.isLt; have := k'.isLt
  exact ⟨Fin.ext (by omega), Fin.ext (by omega), Fin.ext (by omega)⟩

theorem hdivE : 512 ∣ S8192x1024.size 0 := ⟨16, rfl⟩
theorem hdivO : 512 ∣ S1x8192x1024.size 1 := ⟨16, rfl⟩
theorem hdivB : 7 ∣ S7x16x1024.size 0 := ⟨1, rfl⟩

/-- Rows `16·g … 16·g + 15` of the table; of the result's plane; slot `s` of a scratch. -/
abbrev eSet (g : Fin 512) : Finset S8192x1024.Idx := (Rect.part (s := S8192x1024) (a₀ := 0) hdivE g).set
abbrev oSet (g : Fin 512) : Finset S1x8192x1024.Idx := (Rect.part (s := S1x8192x1024) (a₀ := 1) hdivO g).set
abbrev bSet (s : Fin 7) : Finset S7x16x1024.Idx := (Rect.part (s := S7x16x1024) (a₀ := 0) hdivB s).set

/-! ## The memrefs the body slices, chunk by chunk -/

abbrev eChunk (L : grid0.Coords) (k : Fin 16) : Memref sig .scVector .hbm S16x1024 .f32 :=
  eW.slice (Rect.unit (s := S8192x1024) (k0_off1 L (BitVec.ofNat 32 (16 * k.val))) S16x1024.size (k0_off1_inb L k)) (fun _ => rfl)
abbrev oChunk (L : grid0.Coords) (k : Fin 16) : Memref sig .scVector .hbm S16x1024 .f32 :=
  (oW.slice (Rect.unit (s := S1x8192x1024) (k0_off2 L (BitVec.ofNat 32 (16 * k.val))) S1x16x1024.size (k0_off2_inb L k)) (fun _ => rfl)).squeeze S16x1024 squeezes_S1x16x1024_S16x1024
theorem slot_inb (s : Fin 7) : ∀ a, (![s.val, 0, 0] : Fin 3 → Nat) a + S1x16x1024.size a ≤ S7x16x1024.size a := by
  have := s.isLt
  intro a; match a with
  | 0 => show s.val + 1 ≤ 7; omega
  | 1 => show 0 + 16 ≤ 16; omega
  | 2 => show 0 + 1024 ≤ 1024; omega
abbrev slot (s : Fin 7) : Memref sig .scVector .vmem S16x1024 .f32 :=
  (bW.slice (Rect.unit (s := S7x16x1024) ![s.val, 0, 0] S1x16x1024.size (slot_inb s)) (fun _ => rfl)).squeeze S16x1024 squeezes_S1x16x1024_S16x1024

/-- The same memrefs with the body's own literals (chunk `k` starts at row offset `16·k` of the worker's rows). -/
abbrev eC0 (L : grid0.Coords) : Memref sig .scVector .hbm S16x1024 .f32 := eW.slice (Rect.unit (s := S8192x1024) (k0_off1 L 0#32) S16x1024.size (k0_off1_inb L 0)) (fun _ => rfl)
abbrev eC1 (L : grid0.Coords) : Memref sig .scVector .hbm S16x1024 .f32 := eW.slice (Rect.unit (s := S8192x1024) (k0_off1 L 16#32) S16x1024.size (k0_off1_inb L 1)) (fun _ => rfl)
abbrev eC2 (L : grid0.Coords) : Memref sig .scVector .hbm S16x1024 .f32 := eW.slice (Rect.unit (s := S8192x1024) (k0_off1 L 32#32) S16x1024.size (k0_off1_inb L 2)) (fun _ => rfl)
abbrev eC3 (L : grid0.Coords) : Memref sig .scVector .hbm S16x1024 .f32 := eW.slice (Rect.unit (s := S8192x1024) (k0_off1 L 48#32) S16x1024.size (k0_off1_inb L 3)) (fun _ => rfl)
abbrev eC4 (L : grid0.Coords) : Memref sig .scVector .hbm S16x1024 .f32 := eW.slice (Rect.unit (s := S8192x1024) (k0_off1 L 64#32) S16x1024.size (k0_off1_inb L 4)) (fun _ => rfl)
abbrev eC5 (L : grid0.Coords) : Memref sig .scVector .hbm S16x1024 .f32 := eW.slice (Rect.unit (s := S8192x1024) (k0_off1 L 80#32) S16x1024.size (k0_off1_inb L 5)) (fun _ => rfl)
abbrev eC6 (L : grid0.Coords) : Memref sig .scVector .hbm S16x1024 .f32 := eW.slice (Rect.unit (s := S8192x1024) (k0_off1 L 96#32) S16x1024.size (k0_off1_inb L 6)) (fun _ => rfl)
abbrev eC7 (L : grid0.Coords) : Memref sig .scVector .hbm S16x1024 .f32 := eW.slice (Rect.unit (s := S8192x1024) (k0_off1 L 112#32) S16x1024.size (k0_off1_inb L 7)) (fun _ => rfl)
abbrev eC8 (L : grid0.Coords) : Memref sig .scVector .hbm S16x1024 .f32 := eW.slice (Rect.unit (s := S8192x1024) (k0_off1 L 128#32) S16x1024.size (k0_off1_inb L 8)) (fun _ => rfl)
abbrev eC9 (L : grid0.Coords) : Memref sig .scVector .hbm S16x1024 .f32 := eW.slice (Rect.unit (s := S8192x1024) (k0_off1 L 144#32) S16x1024.size (k0_off1_inb L 9)) (fun _ => rfl)
abbrev eC10 (L : grid0.Coords) : Memref sig .scVector .hbm S16x1024 .f32 := eW.slice (Rect.unit (s := S8192x1024) (k0_off1 L 160#32) S16x1024.size (k0_off1_inb L 10)) (fun _ => rfl)
abbrev eC11 (L : grid0.Coords) : Memref sig .scVector .hbm S16x1024 .f32 := eW.slice (Rect.unit (s := S8192x1024) (k0_off1 L 176#32) S16x1024.size (k0_off1_inb L 11)) (fun _ => rfl)
abbrev eC12 (L : grid0.Coords) : Memref sig .scVector .hbm S16x1024 .f32 := eW.slice (Rect.unit (s := S8192x1024) (k0_off1 L 192#32) S16x1024.size (k0_off1_inb L 12)) (fun _ => rfl)
abbrev eC13 (L : grid0.Coords) : Memref sig .scVector .hbm S16x1024 .f32 := eW.slice (Rect.unit (s := S8192x1024) (k0_off1 L 208#32) S16x1024.size (k0_off1_inb L 13)) (fun _ => rfl)
abbrev eC14 (L : grid0.Coords) : Memref sig .scVector .hbm S16x1024 .f32 := eW.slice (Rect.unit (s := S8192x1024) (k0_off1 L 224#32) S16x1024.size (k0_off1_inb L 14)) (fun _ => rfl)
abbrev eC15 (L : grid0.Coords) : Memref sig .scVector .hbm S16x1024 .f32 := eW.slice (Rect.unit (s := S8192x1024) (k0_off1 L 240#32) S16x1024.size (k0_off1_inb L 15)) (fun _ => rfl)
abbrev oC0 (L : grid0.Coords) : Memref sig .scVector .hbm S16x1024 .f32 := (oW.slice (Rect.unit (s := S1x8192x1024) (k0_off2 L 0#32) S1x16x1024.size (k0_off2_inb L 0)) (fun _ => rfl)).squeeze S16x1024 squeezes_S1x16x1024_S16x1024
abbrev oC1 (L : grid0.Coords) : Memref sig .scVector .hbm S16x1024 .f32 := (oW.slice (Rect.unit (s := S1x8192x1024) (k0_off2 L 16#32) S1x16x1024.size (k0_off2_inb L 1)) (fun _ => rfl)).squeeze S16x1024 squeezes_S1x16x1024_S16x1024
abbrev oC2 (L : grid0.Coords) : Memref sig .scVector .hbm S16x1024 .f32 := (oW.slice (Rect.unit (s := S1x8192x1024) (k0_off2 L 32#32) S1x16x1024.size (k0_off2_inb L 2)) (fun _ => rfl)).squeeze S16x1024 squeezes_S1x16x1024_S16x1024
abbrev oC3 (L : grid0.Coords) : Memref sig .scVector .hbm S16x1024 .f32 := (oW.slice (Rect.unit (s := S1x8192x1024) (k0_off2 L 48#32) S1x16x1024.size (k0_off2_inb L 3)) (fun _ => rfl)).squeeze S16x1024 squeezes_S1x16x1024_S16x1024
abbrev oC4 (L : grid0.Coords) : Memref sig .scVector .hbm S16x1024 .f32 := (oW.slice (Rect.unit (s := S1x8192x1024) (k0_off2 L 64#32) S1x16x1024.size (k0_off2_inb L 4)) (fun _ => rfl)).squeeze S16x1024 squeezes_S1x16x1024_S16x1024
abbrev oC5 (L : grid0.Coords) : Memref sig .scVector .hbm S16x1024 .f32 := (oW.slice (Rect.unit (s := S1x8192x1024) (k0_off2 L 80#32) S1x16x1024.size (k0_off2_inb L 5)) (fun _ => rfl)).squeeze S16x1024 squeezes_S1x16x1024_S16x1024
abbrev oC6 (L : grid0.Coords) : Memref sig .scVector .hbm S16x1024 .f32 := (oW.slice (Rect.unit (s := S1x8192x1024) (k0_off2 L 96#32) S1x16x1024.size (k0_off2_inb L 6)) (fun _ => rfl)).squeeze S16x1024 squeezes_S1x16x1024_S16x1024
abbrev oC7 (L : grid0.Coords) : Memref sig .scVector .hbm S16x1024 .f32 := (oW.slice (Rect.unit (s := S1x8192x1024) (k0_off2 L 112#32) S1x16x1024.size (k0_off2_inb L 7)) (fun _ => rfl)).squeeze S16x1024 squeezes_S1x16x1024_S16x1024
abbrev oC8 (L : grid0.Coords) : Memref sig .scVector .hbm S16x1024 .f32 := (oW.slice (Rect.unit (s := S1x8192x1024) (k0_off2 L 128#32) S1x16x1024.size (k0_off2_inb L 8)) (fun _ => rfl)).squeeze S16x1024 squeezes_S1x16x1024_S16x1024
abbrev oC9 (L : grid0.Coords) : Memref sig .scVector .hbm S16x1024 .f32 := (oW.slice (Rect.unit (s := S1x8192x1024) (k0_off2 L 144#32) S1x16x1024.size (k0_off2_inb L 9)) (fun _ => rfl)).squeeze S16x1024 squeezes_S1x16x1024_S16x1024
abbrev oC10 (L : grid0.Coords) : Memref sig .scVector .hbm S16x1024 .f32 := (oW.slice (Rect.unit (s := S1x8192x1024) (k0_off2 L 160#32) S1x16x1024.size (k0_off2_inb L 10)) (fun _ => rfl)).squeeze S16x1024 squeezes_S1x16x1024_S16x1024
abbrev oC11 (L : grid0.Coords) : Memref sig .scVector .hbm S16x1024 .f32 := (oW.slice (Rect.unit (s := S1x8192x1024) (k0_off2 L 176#32) S1x16x1024.size (k0_off2_inb L 11)) (fun _ => rfl)).squeeze S16x1024 squeezes_S1x16x1024_S16x1024
abbrev oC12 (L : grid0.Coords) : Memref sig .scVector .hbm S16x1024 .f32 := (oW.slice (Rect.unit (s := S1x8192x1024) (k0_off2 L 192#32) S1x16x1024.size (k0_off2_inb L 12)) (fun _ => rfl)).squeeze S16x1024 squeezes_S1x16x1024_S16x1024
abbrev oC13 (L : grid0.Coords) : Memref sig .scVector .hbm S16x1024 .f32 := (oW.slice (Rect.unit (s := S1x8192x1024) (k0_off2 L 208#32) S1x16x1024.size (k0_off2_inb L 13)) (fun _ => rfl)).squeeze S16x1024 squeezes_S1x16x1024_S16x1024
abbrev oC14 (L : grid0.Coords) : Memref sig .scVector .hbm S16x1024 .f32 := (oW.slice (Rect.unit (s := S1x8192x1024) (k0_off2 L 224#32) S1x16x1024.size (k0_off2_inb L 14)) (fun _ => rfl)).squeeze S16x1024 squeezes_S1x16x1024_S16x1024
abbrev oC15 (L : grid0.Coords) : Memref sig .scVector .hbm S16x1024 .f32 := (oW.slice (Rect.unit (s := S1x8192x1024) (k0_off2 L 240#32) S1x16x1024.size (k0_off2_inb L 15)) (fun _ => rfl)).squeeze S16x1024 squeezes_S1x16x1024_S16x1024
abbrev sl0 : Memref sig .scVector .vmem S16x1024 .f32 := (bW.slice (Rect.unit (s := S7x16x1024) ![0, 0, 0] S1x16x1024.size inb_S7x16x1024_S1x16x1024_0_0_0) (fun _ => rfl)).squeeze S16x1024 squeezes_S1x16x1024_S16x1024
abbrev sl1 : Memref sig .scVector .vmem S16x1024 .f32 := (bW.slice (Rect.unit (s := S7x16x1024) ![1, 0, 0] S1x16x1024.size inb_S7x16x1024_S1x16x1024_1_0_0) (fun _ => rfl)).squeeze S16x1024 squeezes_S1x16x1024_S16x1024
abbrev sl2 : Memref sig .scVector .vmem S16x1024 .f32 := (bW.slice (Rect.unit (s := S7x16x1024) ![2, 0, 0] S1x16x1024.size inb_S7x16x1024_S1x16x1024_2_0_0) (fun _ => rfl)).squeeze S16x1024 squeezes_S1x16x1024_S16x1024
abbrev sl3 : Memref sig .scVector .vmem S16x1024 .f32 := (bW.slice (Rect.unit (s := S7x16x1024) ![3, 0, 0] S1x16x1024.size inb_S7x16x1024_S1x16x1024_3_0_0) (fun _ => rfl)).squeeze S16x1024 squeezes_S1x16x1024_S16x1024
abbrev sl4 : Memref sig .scVector .vmem S16x1024 .f32 := (bW.slice (Rect.unit (s := S7x16x1024) ![4, 0, 0] S1x16x1024.size inb_S7x16x1024_S1x16x1024_4_0_0) (fun _ => rfl)).squeeze S16x1024 squeezes_S1x16x1024_S16x1024
abbrev sl5 : Memref sig .scVector .vmem S16x1024 .f32 := (bW.slice (Rect.unit (s := S7x16x1024) ![5, 0, 0] S1x16x1024.size inb_S7x16x1024_S1x16x1024_5_0_0) (fun _ => rfl)).squeeze S16x1024 squeezes_S1x16x1024_S16x1024
abbrev sl6 : Memref sig .scVector .vmem S16x1024 .f32 := (bW.slice (Rect.unit (s := S7x16x1024) ![6, 0, 0] S1x16x1024.size inb_S7x16x1024_S1x16x1024_6_0_0) (fun _ => rfl)).squeeze S16x1024 squeezes_S1x16x1024_S16x1024
abbrev inSem0 : DmaSem sig := ((cc0_scratch1.slice (Rect.unit (s := S7) ![0] S1.size inb_S7_S1_0)).squeeze S_ squeezes_S1_S_).sem
abbrev inSem1 : DmaSem sig := ((cc0_scratch1.slice (Rect.unit (s := S7) ![1] S1.size inb_S7_S1_1)).squeeze S_ squeezes_S1_S_).sem
abbrev inSem2 : DmaSem sig := ((cc0_scratch1.slice (Rect.unit (s := S7) ![2] S1.size inb_S7_S1_2)).squeeze S_ squeezes_S1_S_).sem
abbrev inSem3 : DmaSem sig := ((cc0_scratch1.slice (Rect.unit (s := S7) ![3] S1.size inb_S7_S1_3)).squeeze S_ squeezes_S1_S_).sem
abbrev inSem4 : DmaSem sig := ((cc0_scratch1.slice (Rect.unit (s := S7) ![4] S1.size inb_S7_S1_4)).squeeze S_ squeezes_S1_S_).sem
abbrev inSem5 : DmaSem sig := ((cc0_scratch1.slice (Rect.unit (s := S7) ![5] S1.size inb_S7_S1_5)).squeeze S_ squeezes_S1_S_).sem
abbrev inSem6 : DmaSem sig := ((cc0_scratch1.slice (Rect.unit (s := S7) ![6] S1.size inb_S7_S1_6)).squeeze S_ squeezes_S1_S_).sem
abbrev outSem0 : DmaSem sig := ((cc0_scratch2.slice (Rect.unit (s := S7) ![0] S1.size inb_S7_S1_0)).squeeze S_ squeezes_S1_S_).sem
abbrev outSem1 : DmaSem sig := ((cc0_scratch2.slice (Rect.unit (s := S7) ![1] S1.size inb_S7_S1_1)).squeeze S_ squeezes_S1_S_).sem
abbrev outSem2 : DmaSem sig := ((cc0_scratch2.slice (Rect.unit (s := S7) ![2] S1.size inb_S7_S1_2)).squeeze S_ squeezes_S1_S_).sem
abbrev outSem3 : DmaSem sig := ((cc0_scratch2.slice (Rect.unit (s := S7) ![3] S1.size inb_S7_S1_3)).squeeze S_ squeezes_S1_S_).sem
abbrev outSem4 : DmaSem sig := ((cc0_scratch2.slice (Rect.unit (s := S7) ![4] S1.size inb_S7_S1_4)).squeeze S_ squeezes_S1_S_).sem
abbrev outSem5 : DmaSem sig := ((cc0_scratch2.slice (Rect.unit (s := S7) ![5] S1.size inb_S7_S1_5)).squeeze S_ squeezes_S1_S_).sem
abbrev outSem6 : DmaSem sig := ((cc0_scratch2.slice (Rect.unit (s := S7) ![6] S1.size inb_S7_S1_6)).squeeze S_ squeezes_S1_S_).sem

/-! ## Each memref's elements are its chunk -/

theorem eRect_eq (L : grid0.Coords) (k : Fin 16) :
    Rect.unit (s := S8192x1024) (k0_off1 L (BitVec.ofNat 32 (16 * k.val))) S16x1024.size (k0_off1_inb L k)
      = Rect.part (s := S8192x1024) (a₀ := 0) hdivE (chunkNo (cL L) (sL L) k) := by
  unfold Rect.part Rect.block
  congr 1 <;> funext a
  · rw [k0_off1_eq]
    match a with
    | 0 => simp [Shape.partIx, Shape.partSize, chunkNo]; omega
    | 1 => simp [Shape.partIx, Shape.partSize]
  · match a with
    | 0 => simp [Shape.partSize]
    | 1 => simp [Shape.partSize]

theorem oRect_eq (L : grid0.Coords) (k : Fin 16) :
    Rect.unit (s := S1x8192x1024) (k0_off2 L (BitVec.ofNat 32 (16 * k.val))) S1x16x1024.size (k0_off2_inb L k)
      = Rect.part (s := S1x8192x1024) (a₀ := 1) hdivO (chunkNo (cL L) (sL L) k) := by
  unfold Rect.part Rect.block
  congr 1 <;> funext a
  · rw [k0_off2_eq]
    match a with
    | 0 => simp [Shape.partIx, Shape.partSize]
    | 1 => simp [Shape.partIx, Shape.partSize, chunkNo]; omega
    | 2 => simp [Shape.partIx, Shape.partSize]
  · match a with
    | 0 => simp [Shape.partSize]
    | 1 => simp [Shape.partSize]
    | 2 => simp [Shape.partSize]

theorem bRect_eq (s : Fin 7) :
    Rect.unit (s := S7x16x1024) ![s.val, 0, 0] S1x16x1024.size (slot_inb s) = Rect.part (s := S7x16x1024) (a₀ := 0) hdivB s := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem set_eChunk (L : grid0.Coords) (k : Fin 16) : (eChunk L k).view.set = eSet (chunkNo (cL L) (sL L) k) := by
  show ((View.whole (main_arg1_scv : Ref sig .scVector)).slice (Rect.unit (s := S8192x1024) (k0_off1 L (BitVec.ofNat 32 (16 * k.val))) S16x1024.size (k0_off1_inb L k))).set = _
  rw [View.set_slice, eRect_eq]; exact Finset.map_refl
theorem set_oChunk (L : grid0.Coords) (k : Fin 16) : (oChunk L k).view.set = oSet (chunkNo (cL L) (sL L) k) := by
  show (((View.whole (main_v0_scv : Ref sig .scVector)).slice (Rect.unit (s := S1x8192x1024) (k0_off2 L (BitVec.ofNat 32 (16 * k.val))) S1x16x1024.size (k0_off2_inb L k))).reshape S16x1024 squeezes_S1x16x1024_S16x1024.numel_eq).set = _
  rw [View.set_reshape, View.set_slice]
  exact (congrArg (fun r : Rect S1x8192x1024 => r.set.map (View.whole (main_v0_scv : Ref sig .scVector)).emb) (oRect_eq L k)).trans Finset.map_refl
theorem set_slot (s : Fin 7) : (slot s).view.set = bSet s := by
  show (((View.whole (cc0_scratch0 : Ref sig .scVector)).slice (Rect.unit (s := S7x16x1024) ![s.val, 0, 0] S1x16x1024.size (slot_inb s))).reshape S16x1024 squeezes_S1x16x1024_S16x1024.numel_eq).set = _
  rw [View.set_reshape, View.set_slice]
  exact (congrArg (fun r : Rect S7x16x1024 => r.set.map (View.whole (cc0_scratch0 : Ref sig .scVector)).emb) (bRect_eq s)).trans Finset.map_refl

/-! ## The chunks are disjoint and cover -/

theorem eSets_disjoint : ∀ i ∈ (Finset.univ : Finset (Fin 512)), ∀ j ∈ (Finset.univ : Finset (Fin 512)), i ≠ j → Disjoint (eSet i) (eSet j) :=
  fun _ _ _ _ h => Rect.part_disjoint hdivE h
theorem eSets_cover : (Finset.univ : Finset (Fin 512)).biUnion eSet = Finset.univ := Rect.biUnion_part hdivE
theorem oSets_disjoint : ∀ i ∈ (Finset.univ : Finset (Fin 512)), ∀ j ∈ (Finset.univ : Finset (Fin 512)), i ≠ j → Disjoint (oSet i) (oSet j) :=
  fun _ _ _ _ h => Rect.part_disjoint hdivO h
theorem oSets_cover : (Finset.univ : Finset (Fin 512)).biUnion oSet = Finset.univ := Rect.biUnion_part hdivO
theorem bSets_disjoint : ∀ i ∈ (Finset.univ : Finset (Fin 7)), ∀ j ∈ (Finset.univ : Finset (Fin 7)), i ≠ j → Disjoint (bSet i) (bSet j) :=
  fun _ _ _ _ h => Rect.part_disjoint hdivB h
theorem bSets_cover : (Finset.univ : Finset (Fin 7)).biUnion bSet = Finset.univ := Rect.biUnion_part hdivB

end Cert.Kernel.Copy

end
-- ==== Proof.BitsTile.lean ====
/-
  One worker's task. The worker at grid point `L` holds its sixteen chunks of the table and of the result and the seven
  slots of its scratch, each by exactly its own elements. It starts seven reads (chunk i of the table into slot i mod 7),
  then for i = 0 … 15: waits for read i, starts write i (slot i mod 7 into chunk i of the result) and, three steps
  later, waits for write i - 3 and reuses its slot for read i + 4; the remaining writes are waited for at the end. Every
  slot has a semaphore of its own for reads and one for writes, and a slot's next copy starts only after the wait for its
  previous one, so at most one copy is ever outstanding on a semaphore and no buffer is touched while a copy on it is in
  flight. Each chunk of the result therefore ends holding what the matching chunk of the table held: the result's
  entry (0, r, c) is the table's entry (r, c) on the worker's rows.
-/
import proofs.«202656_g558345749078_cont_9to1c4b_557_14_alg».proof.Kernel
import proofs.«202656_g558345749078_cont_9to1c4b_557_14_alg».proof.Proof.Gen.Kernel
import proofs.«202656_g558345749078_cont_9to1c4b_557_14_alg».proof.Proof.Gen.Kernel.Skeleton
import Idealize.ShloMosaic.Lib.SparseCore.Launch
import Idealize.ShloMosaic.Lib.SparseCore.Ops
import Idealize.ShloMosaic.Lib.Pipeline.Kit
import Idealize.ShloMosaic.Lib.Tactic
import Idealize.ShloMosaic.Lib.ValueLayout
import proofs.«202656_g558345749078_cont_9to1c4b_557_14_alg».proof.Proof.Spec
import proofs.«202656_g558345749078_cont_9to1c4b_557_14_alg».proof.Proof.BitsChunks

noncomputable section

namespace Cert.Kernel.Copy

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-- What the result must hold: the table under a leading axis of extent one. -/
abbrev want (d : Dev nD) : Buf (Elt F) (oLoc d) := Cert.Spec.lead (m (eLoc d))

/-- Chunk `g` of the table at its launch contents; chunk `g` of the result at `f`. -/
abbrev eChunkPts (d : Dev nD) (g : Fin 512) : sProp 𝕄 := eLoc d ↦[eSet g]{fullShare} m (eLoc d)
abbrev oChunkPts (d : Dev nD) (g : Fin 512) (f : Buf (Elt F) (oLoc d)) : sProp 𝕄 := oLoc d ↦[oSet g]{fullShare} f

omit [FloatOps F] in
theorem bigSep_fin7 (Φ : Fin 7 → sProp 𝕄) :
    bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide, SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem bigSep_fin14 (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
  rw [show (Finset.univ : Finset (Fin 14)) = {0, 1, 2, 3, 4, 5, 6, 7, 8, 9, 10, 11, 12, 13} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

section Tile

variable (d : Dev nD) (L : grid0.Coords)

/-- The worker's scratch. -/
abbrev bLoc : Loc nD τ sig := (V d (cV L) (jV L)).loc cc0_scratch0

/-! ### A chunk held by the worker's memref is the chunk of the array -/

omit [FloatOps F] in
theorem pts_e (k : Fin 16) (f : Buf (Elt F) (eLoc d)) :
    ((eChunk L k).view.loc (V d (cV L) (jV L)) ↦[(eChunk L k).view.set]{fullShare} f : sProp 𝕄)
      = eLoc d ↦[eSet (chunkNo (cL L) (sL L) k)]{fullShare} f := by
  rw [set_eChunk]
omit [FloatOps F] in
theorem pts_o (k : Fin 16) (f : Buf (Elt F) (oLoc d)) :
    ((oChunk L k).view.loc (V d (cV L) (jV L)) ↦[(oChunk L k).view.set]{fullShare} f : sProp 𝕄)
      = oLoc d ↦[oSet (chunkNo (cL L) (sL L) k)]{fullShare} f := by
  rw [set_oChunk]
omit [FloatOps F] in
theorem pts_b (s : Fin 7) (f : Buf (Elt F) (bLoc d L)) :
    ((slot s).view.loc (V d (cV L) (jV L)) ↦[(slot s).view.set]{fullShare} f : sProp 𝕄)
      = bLoc d L ↦[bSet s]{fullShare} f := by
  rw [set_slot]
omit [FloatOps F] in
theorem pts_e0 (f : Buf (Elt F) (eLoc d)) :
    ((eC0 L).view.loc (V d (cV L) (jV L)) ↦[(eC0 L).view.set]{fullShare} f : sProp 𝕄) = eLoc d ↦[eSet (chunkNo (cL L) (sL L) 0)]{fullShare} f := pts_e d L 0 f
omit [FloatOps F] in
theorem pts_o0 (f : Buf (Elt F) (oLoc d)) :
    ((oC0 L).view.loc (V d (cV L) (jV L)) ↦[(oC0 L).view.set]{fullShare} f : sProp 𝕄) = oLoc d ↦[oSet (chunkNo (cL L) (sL L) 0)]{fullShare} f := pts_o d L 0 f
omit [FloatOps F] in
theorem pts_e1 (f : Buf (Elt F) (eLoc d)) :
    ((eC1 L).view.loc (V d (cV L) (jV L)) ↦[(eC1 L).view.set]{fullShare} f : sProp 𝕄) = eLoc d ↦[eSet (chunkNo (cL L) (sL L) 1)]{fullShare} f := pts_e d L 1 f
omit [FloatOps F] in
theorem pts_o1 (f : Buf (Elt F) (oLoc d)) :
    ((oC1 L).view.loc (V d (cV L) (jV L)) ↦[(oC1 L).view.set]{fullShare} f : sProp 𝕄) = oLoc d ↦[oSet (chunkNo (cL L) (sL L) 1)]{fullShare} f := pts_o d L 1 f
omit [FloatOps F] in
theorem pts_e2 (f : Buf (Elt F) (eLoc d)) :
    ((eC2 L).view.loc (V d (cV L) (jV L)) ↦[(eC2 L).view.set]{fullShare} f : sProp 𝕄) = eLoc d ↦[eSet (chunkNo (cL L) (sL L) 2)]{fullShare} f := pts_e d L 2 f
omit [FloatOps F] in
theorem pts_o2 (f : Buf (Elt F) (oLoc d)) :
    ((oC2 L).view.loc (V d (cV L) (jV L)) ↦[(oC2 L).view.set]{fullShare} f : sProp 𝕄) = oLoc d ↦[oSet (chunkNo (cL L) (sL L) 2)]{fullShare} f := pts_o d L 2 f
omit [FloatOps F] in
theorem pts_e3 (f : Buf (Elt F) (eLoc d)) :
    ((eC3 L).view.loc (V d (cV L) (jV L)) ↦[(eC3 L).view.set]{fullShare} f : sProp 𝕄) = eLoc d ↦[eSet (chunkNo (cL L) (sL L) 3)]{fullShare} f := pts_e d L 3 f
omit [FloatOps F] in
theorem pts_o3 (f : Buf (Elt F) (oLoc d)) :
    ((oC3 L).view.loc (V d (cV L) (jV L)) ↦[(oC3 L).view.set]{fullShare} f : sProp 𝕄) = oLoc d ↦[oSet (chunkNo (cL L) (sL L) 3)]{fullShare} f := pts_o d L 3 f
omit [FloatOps F] in
theorem pts_e4 (f : Buf (Elt F) (eLoc d)) :
    ((eC4 L).view.loc (V d (cV L) (jV L)) ↦[(eC4 L).view.set]{fullShare} f : sProp 𝕄) = eLoc d ↦[eSet (chunkNo (cL L) (sL L) 4)]{fullShare} f := pts_e d L 4 f
omit [FloatOps F] in
theorem pts_o4 (f : Buf (Elt F) (oLoc d)) :
    ((oC4 L).view.loc (V d (cV L) (jV L)) ↦[(oC4 L).view.set]{fullShare} f : sProp 𝕄) = oLoc d ↦[oSet (chunkNo (cL L) (sL L) 4)]{fullShare} f := pts_o d L 4 f
omit [FloatOps F] in
theorem pts_e5 (f : Buf (Elt F) (eLoc d)) :
    ((eC5 L).view.loc (V d (cV L) (jV L)) ↦[(eC5 L).view.set]{fullShare} f : sProp 𝕄) = eLoc d ↦[eSet (chunkNo (cL L) (sL L) 5)]{fullShare} f := pts_e d L 5 f
omit [FloatOps F] in
theorem pts_o5 (f : Buf (Elt F) (oLoc d)) :
    ((oC5 L).view.loc (V d (cV L) (jV L)) ↦[(oC5 L).view.set]{fullShare} f : sProp 𝕄) = oLoc d ↦[oSet (chunkNo (cL L) (sL L) 5)]{fullShare} f := pts_o d L 5 f
omit [FloatOps F] in
theorem pts_e6 (f : Buf (Elt F) (eLoc d)) :
    ((eC6 L).view.loc (V d (cV L) (jV L)) ↦[(eC6 L).view.set]{fullShare} f : sProp 𝕄) = eLoc d ↦[eSet (chunkNo (cL L) (sL L) 6)]{fullShare} f := pts_e d L 6 f
omit [FloatOps F] in
theorem pts_o6 (f : Buf (Elt F) (oLoc d)) :
    ((oC6 L).view.loc (V d (cV L) (jV L)) ↦[(oC6 L).view.set]{fullShare} f : sProp 𝕄) = oLoc d ↦[oSet (chunkNo (cL L) (sL L) 6)]{fullShare} f := pts_o d L 6 f
omit [FloatOps F] in
theorem pts_e7 (f : Buf (Elt F) (eLoc d)) :
    ((eC7 L).view.loc (V d (cV L) (jV L)) ↦[(eC7 L).view.set]{fullShare} f : sProp 𝕄) = eLoc d ↦[eSet (chunkNo (cL L) (sL L) 7)]{fullShare} f := pts_e d L 7 f
omit [FloatOps F] in
theorem pts_o7 (f : Buf (Elt F) (oLoc d)) :
    ((oC7 L).view.loc (V d (cV L) (jV L)) ↦[(oC7 L).view.set]{fullShare} f : sProp 𝕄) = oLoc d ↦[oSet (chunkNo (cL L) (sL L) 7)]{fullShare} f := pts_o d L 7 f
omit [FloatOps F] in
theorem pts_e8 (f : Buf (Elt F) (eLoc d)) :
    ((eC8 L).view.loc (V d (cV L) (jV L)) ↦[(eC8 L).view.set]{fullShare} f : sProp 𝕄) = eLoc d ↦[eSet (chunkNo (cL L) (sL L) 8)]{fullShare} f := pts_e d L 8 f
omit [FloatOps F] in
theorem pts_o8 (f : Buf (Elt F) (oLoc d)) :
    ((oC8 L).view.loc (V d (cV L) (jV L)) ↦[(oC8 L).view.set]{fullShare} f : sProp 𝕄) = oLoc d ↦[oSet (chunkNo (cL L) (sL L) 8)]{fullShare} f := pts_o d L 8 f
omit [FloatOps F] in
theorem pts_e9 (f : Buf (Elt F) (eLoc d)) :
    ((eC9 L).view.loc (V d (cV L) (jV L)) ↦[(eC9 L).view.set]{fullShare} f : sProp 𝕄) = eLoc d ↦[eSet (chunkNo (cL L) (sL L) 9)]{fullShare} f := pts_e d L 9 f
omit [FloatOps F] in
theorem pts_o9 (f : Buf (Elt F) (oLoc d)) :
    ((oC9 L).view.loc (V d (cV L) (jV L)) ↦[(oC9 L).view.set]{fullShare} f : sProp 𝕄) = oLoc d ↦[oSet (chunkNo (cL L) (sL L) 9)]{fullShare} f := pts_o d L 9 f
omit [FloatOps F] in
theorem pts_e10 (f : Buf (Elt F) (eLoc d)) :
    ((eC10 L).view.loc (V d (cV L) (jV L)) ↦[(eC10 L).view.set]{fullShare} f : sProp 𝕄) = eLoc d ↦[eSet (chunkNo (cL L) (sL L) 10)]{fullShare} f := pts_e d L 10 f
omit [FloatOps F] in
theorem pts_o10 (f : Buf (Elt F) (oLoc d)) :
    ((oC10 L).view.loc (V d (cV L) (jV L)) ↦[(oC10 L).view.set]{fullShare} f : sProp 𝕄) = oLoc d ↦[oSet (chunkNo (cL L) (sL L) 10)]{fullShare} f := pts_o d L 10 f
omit [FloatOps F] in
theorem pts_e11 (f : Buf (Elt F) (eLoc d)) :
    ((eC11 L).view.loc (V d (cV L) (jV L)) ↦[(eC11 L).view.set]{fullShare} f : sProp 𝕄) = eLoc d ↦[eSet (chunkNo (cL L) (sL L) 11)]{fullShare} f := pts_e d L 11 f
omit [FloatOps F] in
theorem pts_o11 (f : Buf (Elt F) (oLoc d)) :
    ((oC11 L).view.loc (V d (cV L) (jV L)) ↦[(oC11 L).view.set]{fullShare} f : sProp 𝕄) = oLoc d ↦[oSet (chunkNo (cL L) (sL L) 11)]{fullShare} f := pts_o d L 11 f
omit [FloatOps F] in
theorem pts_e12 (f : Buf (Elt F) (eLoc d)) :
    ((eC12 L).view.loc (V d (cV L) (jV L)) ↦[(eC12 L).view.set]{fullShare} f : sProp 𝕄) = eLoc d ↦[eSet (chunkNo (cL L) (sL L) 12)]{fullShare} f := pts_e d L 12 f
omit [FloatOps F] in
theorem pts_o12 (f : Buf (Elt F) (oLoc d)) :
    ((oC12 L).view.loc (V d (cV L) (jV L)) ↦[(oC12 L).view.set]{fullShare} f : sProp 𝕄) = oLoc d ↦[oSet (chunkNo (cL L) (sL L) 12)]{fullShare} f := pts_o d L 12 f
omit [FloatOps F] in
theorem pts_e13 (f : Buf (Elt F) (eLoc d)) :
    ((eC13 L).view.loc (V d (cV L) (jV L)) ↦[(eC13 L).view.set]{fullShare} f : sProp 𝕄) = eLoc d ↦[eSet (chunkNo (cL L) (sL L) 13)]{fullShare} f := pts_e d L 13 f
omit [FloatOps F] in
theorem pts_o13 (f : Buf (Elt F) (oLoc d)) :
    ((oC13 L).view.loc (V d (cV L) (jV L)) ↦[(oC13 L).view.set]{fullShare} f : sProp 𝕄) = oLoc d ↦[oSet (chunkNo (cL L) (sL L) 13)]{fullShare} f := pts_o d L 13 f
omit [FloatOps F] in
theorem pts_e14 (f : Buf (Elt F) (eLoc d)) :
    ((eC14 L).view.loc (V d (cV L) (jV L)) ↦[(eC14 L).view.set]{fullShare} f : sProp 𝕄) = eLoc d ↦[eSet (chunkNo (cL L) (sL L) 14)]{fullShare} f := pts_e d L 14 f
omit [FloatOps F] in
theorem pts_o14 (f : Buf (Elt F) (oLoc d)) :
    ((oC14 L).view.loc (V d (cV L) (jV L)) ↦[(oC14 L).view.set]{fullShare} f : sProp 𝕄) = oLoc d ↦[oSet (chunkNo (cL L) (sL L) 14)]{fullShare} f := pts_o d L 14 f
omit [FloatOps F] in
theorem pts_e15 (f : Buf (Elt F) (eLoc d)) :
    ((eC15 L).view.loc (V d (cV L) (jV L)) ↦[(eC15 L).view.set]{fullShare} f : sProp 𝕄) = eLoc d ↦[eSet (chunkNo (cL L) (sL L) 15)]{fullShare} f := pts_e d L 15 f
omit [FloatOps F] in
theorem pts_o15 (f : Buf (Elt F) (oLoc d)) :
    ((oC15 L).view.loc (V d (cV L) (jV L)) ↦[(oC15 L).view.set]{fullShare} f : sProp 𝕄) = oLoc d ↦[oSet (chunkNo (cL L) (sL L) 15)]{fullShare} f := pts_o d L 15 f
omit [FloatOps F] in
theorem pts_b0 (f : Buf (Elt F) (bLoc d L)) :
    ((sl0).view.loc (V d (cV L) (jV L)) ↦[(sl0).view.set]{fullShare} f : sProp 𝕄) = bLoc d L ↦[bSet 0]{fullShare} f := pts_b d L 0 f
omit [FloatOps F] in
theorem pts_b1 (f : Buf (Elt F) (bLoc d L)) :
    ((sl1).view.loc (V d (cV L) (jV L)) ↦[(sl1).view.set]{fullShare} f : sProp 𝕄) = bLoc d L ↦[bSet 1]{fullShare} f := pts_b d L 1 f
omit [FloatOps F] in
theorem pts_b2 (f : Buf (Elt F) (bLoc d L)) :
    ((sl2).view.loc (V d (cV L) (jV L)) ↦[(sl2).view.set]{fullShare} f : sProp 𝕄) = bLoc d L ↦[bSet 2]{fullShare} f := pts_b d L 2 f
omit [FloatOps F] in
theorem pts_b3 (f : Buf (Elt F) (bLoc d L)) :
    ((sl3).view.loc (V d (cV L) (jV L)) ↦[(sl3).view.set]{fullShare} f : sProp 𝕄) = bLoc d L ↦[bSet 3]{fullShare} f := pts_b d L 3 f
omit [FloatOps F] in
theorem pts_b4 (f : Buf (Elt F) (bLoc d L)) :
    ((sl4).view.loc (V d (cV L) (jV L)) ↦[(sl4).view.set]{fullShare} f : sProp 𝕄) = bLoc d L ↦[bSet 4]{fullShare} f := pts_b d L 4 f
omit [FloatOps F] in
theorem pts_b5 (f : Buf (Elt F) (bLoc d L)) :
    ((sl5).view.loc (V d (cV L) (jV L)) ↦[(sl5).view.set]{fullShare} f : sProp 𝕄) = bLoc d L ↦[bSet 5]{fullShare} f := pts_b d L 5 f
omit [FloatOps F] in
theorem pts_b6 (f : Buf (Elt F) (bLoc d L)) :
    ((sl6).view.loc (V d (cV L) (jV L)) ↦[(sl6).view.set]{fullShare} f : sProp 𝕄) = bLoc d L ↦[bSet 6]{fullShare} f := pts_b d L 6 f

/-! ### The worker's own storage: fourteen semaphores and the scratch in seven slots -/

omit [FloatOps F] in
theorem dma_scoped (j : Fin 14) : (SemLoc.dma j : SemLoc sig).isScoped .scVector = true := by revert j; decide

def dmaCells (thr : Thread nD τ) : Finset (GSem nD τ sig) :=
  Finset.univ.map ⟨fun j : Fin 14 => ((thr, SemLoc.dma j) : GSem nD τ sig), fun _ _ e => SemLoc.dma.inj (Prod.mk.inj e).2⟩

omit [FloatOps F] in
theorem dmaCells_sub : dmaCells (V d (cV L) (jV L)) ⊆ ownCells (V d (cV L) (jV L)) := by
  intro g hg
  obtain ⟨j, -, rfl⟩ := Finset.mem_map.mp hg
  exact mem_ownCells.mpr ⟨rfl, dma_scoped j⟩

omit [FloatOps F] in
theorem ownSems0_V :
    (ownSems0 (V d (cV L) (jV L)) : sProp 𝕄)
      = iprop((semVal (V d (cV L) (jV L), SemLoc.dma inSem0) 0 ∗ semVal (V d (cV L) (jV L), SemLoc.dma inSem1) 0 ∗ semVal (V d (cV L) (jV L), SemLoc.dma inSem2) 0 ∗ semVal (V d (cV L) (jV L), SemLoc.dma inSem3) 0 ∗ semVal (V d (cV L) (jV L), SemLoc.dma inSem4) 0 ∗ semVal (V d (cV L) (jV L), SemLoc.dma inSem5) 0 ∗ semVal (V d (cV L) (jV L), SemLoc.dma inSem6) 0
          ∗ semVal (V d (cV L) (jV L), SemLoc.dma outSem0) 0 ∗ semVal (V d (cV L) (jV L), SemLoc.dma outSem1) 0 ∗ semVal (V d (cV L) (jV L), SemLoc.dma outSem2) 0 ∗ semVal (V d (cV L) (jV L), SemLoc.dma outSem3) 0 ∗ semVal (V d (cV L) (jV L), SemLoc.dma outSem4) 0 ∗ semVal (V d (cV L) (jV L), SemLoc.dma outSem5) 0 ∗ semVal (V d (cV L) (jV L), SemLoc.dma outSem6) 0)
          ∗ bigSep (ownCells (V d (cV L) (jV L)) \ dmaCells (V d (cV L) (jV L))) fun g => semVal g 0) := by
  unfold SparseCore.Cfg.ownSems0
  rw [SparseCore.bigSep_sdiff_split' (dmaCells_sub d L)]
  unfold dmaCells
  rw [bigSep_map, bigSep_fin14]
  rfl

omit [FloatOps F] in
theorem ownBufs_V :
    (ownBufs (V d (cV L) (jV L)) : sProp 𝕄)
      = iprop((∃ f, bLoc d L ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit [FloatOps F] in
theorem bPts_slots (f : Buf (Elt F) (bLoc d L)) :
    (bLoc d L ↦{fullShare} f : sProp 𝕄) = iprop((bLoc d L ↦[bSet 0]{fullShare} f) ∗ (bLoc d L ↦[bSet 1]{fullShare} f) ∗ (bLoc d L ↦[bSet 2]{fullShare} f) ∗ (bLoc d L ↦[bSet 3]{fullShare} f) ∗ (bLoc d L ↦[bSet 4]{fullShare} f) ∗ (bLoc d L ↦[bSet 5]{fullShare} f) ∗ (bLoc d L ↦[bSet 6]{fullShare} f)) := by
  rw [← bigSep_fin7 (fun s : Fin 7 => (bLoc d L ↦[bSet s]{fullShare} f : sProp 𝕄)),
    ← pointsTo_biUnion Finset.univ (ℓ := bLoc d L) bSet bSets_disjoint, bSets_cover]; try rfl

/-! ### What a chunk of the result ends holding -/

omit [FloatOps F] in
/-- Entry `x` of chunk `k` is the same row and column of the table and of the result's plane. -/
theorem emb_match (k : Fin 16) (x : S16x1024.Idx) :
    (eChunk L k).view.emb x = ValueIdx.ix2 (((oChunk L k).view.emb x) 1) (((oChunk L k).view.emb x) 2) := by
  obtain ⟨p, q, rfl⟩ : ∃ (p : Fin 16) (q : Fin 1024), x = ValueIdx.ix2 p q := ⟨x 0, x 1, ValueIdx.eq_ix2 x⟩
  have e3 : (oChunk L k).view.emb (ValueIdx.ix2 p q)
      = (Rect.unit (s := S1x8192x1024) (k0_off2 L (BitVec.ofNat 32 (16 * k.val))) S1x16x1024.size (k0_off2_inb L k)).emb
          (ValueIdx.ix3 (⟨0, Nat.one_pos⟩ : Fin 1) p q) := by
    show (Rect.unit (s := S1x8192x1024) (k0_off2 L (BitVec.ofNat 32 (16 * k.val))) S1x16x1024.size (k0_off2_inb L k)).emb
      (Shape.reshapeEquiv squeezes_S1x16x1024_S16x1024.numel_eq (ValueIdx.ix2 p q)) = _
    rw [ValueIdx.reshapeEquiv_ix2_1ab]
  rw [e3]
  funext a; apply Fin.ext
  match a with
  | ⟨0, _⟩ =>
    show (k0_off1 L (BitVec.ofNat 32 (16 * k.val))) 0 + 1 * p.val = (k0_off2 L (BitVec.ofNat 32 (16 * k.val))) 1 + 1 * p.val
    rw [k0_off1_eq, k0_off2_eq]; rfl
  | ⟨1, _⟩ =>
    show (k0_off1 L (BitVec.ofNat 32 (16 * k.val))) 1 + 1 * q.val = (k0_off2 L (BitVec.ofNat 32 (16 * k.val))) 2 + 1 * q.val
    rw [k0_off1_eq, k0_off2_eq]; rfl

/-- A chunk of the result over which the matching chunk of the table has been written whole holds the wanted entries. -/
theorem chunk_lands (k : Fin 16) (g : Buf (Elt F) (oLoc d)) (pay : S16x1024.Idx → Elt F .f32)
    (hpay : ∀ x, pay x = (eChunk L k).view.read (Elt F) (m (eLoc d)) x) :
    ((oChunk L k).view.loc (V d (cV L) (jV L)) ↦[(oChunk L k).view.set]{fullShare}
        (oChunk L k).view.writes (Elt F) g [⟨Rect.whole S16x1024, pay⟩] : sProp 𝕄)
      = oLoc d ↦[oSet (chunkNo (cL L) (sL L) k)]{fullShare} want m d := by
  rw [pts_o]
  refine pointsTo_congr fun i hi => ?_
  rw [← set_oChunk] at hi
  obtain ⟨x, -, rfl⟩ := Finset.mem_map.mp hi
  have h1 := View.read_writes_cons_emb (oChunk L k).view g (Rect.whole S16x1024) pay [] x
  rw [Rect.emb_whole_apply] at h1
  have h2 : (oChunk L k).view.read (Elt F) ((oChunk L k).view.writes (Elt F) g [⟨Rect.whole S16x1024, pay⟩]) x
      = (oChunk L k).view.writes (Elt F) g [⟨Rect.whole S16x1024, pay⟩] ((oChunk L k).view.emb x) :=
    (View.read_apply _ _).trans (cast_eq _ _)
  have h3 : (eChunk L k).view.read (Elt F) (m (eLoc d)) x = m (eLoc d) ((eChunk L k).view.emb x) :=
    (View.read_apply _ _).trans (cast_eq _ _)
  rw [← h2, h1, hpay x, h3, emb_match]
  rfl

omit [FloatOps F] in
/-- A slot over which a chunk has just been written whole hands that chunk on, whatever it held before. -/
theorem relay (v : View sig .scVector .vmem S16x1024 .f32) (fb : v.ty.Contents (Elt F)) (src : S16x1024.Idx → Elt F .f32)
    (rest : List (View.Piece (Elt F) S16x1024 .f32)) (x : S16x1024.Idx) :
    ReadAs.same.apply (v.read (Elt F) (v.writes (Elt F) fb (⟨Rect.whole S16x1024, ReadAs.same.apply src⟩ :: rest))) x = src x := by
  have h := View.read_writes_cons_emb v fb (Rect.whole S16x1024) (ReadAs.same.apply src) rest x
  rwa [Rect.emb_whole_apply] at h

omit [FloatOps F] in
/-- Seven slots, each holding anything, are the scratch holding something. -/
theorem slots_join (f0 f1 f2 f3 f4 f5 f6 : Buf (Elt F) (bLoc d L)) :
    iprop((bLoc d L ↦[bSet 0]{fullShare} f0) ∗ (bLoc d L ↦[bSet 1]{fullShare} f1) ∗ (bLoc d L ↦[bSet 2]{fullShare} f2) ∗ (bLoc d L ↦[bSet 3]{fullShare} f3) ∗ (bLoc d L ↦[bSet 4]{fullShare} f4) ∗ (bLoc d L ↦[bSet 5]{fullShare} f5) ∗ (bLoc d L ↦[bSet 6]{fullShare} f6)) ⊢ (iprop(∃ g, bLoc d L ↦{fullShare} g) : sProp 𝕄) := by
  refine (Entails.of_eq (bigSep_fin7 (F := F) (fun s : Fin 7 => (bLoc d L ↦[bSet s]{fullShare} (![f0, f1, f2, f3, f4, f5, f6] s) : sProp 𝕄))).symm).trans ?_
  iintro H
  ihave H' := (pointsTo_biUnion_join Finset.univ bSet ![f0, f1, f2, f3, f4, f5, f6] f0 bSets_disjoint) $$ H
  icases H' with ⟨%g, -, Hg⟩
  rw [bSets_cover]
  iexists g; iexact Hg

omit [FloatOps F] in
/-- A wait recorded at the kernels' own index keeps the record admissible. -/
theorem ins_ok {W W₁ : Waits sig (HIx 1)} (s : SemLoc sig) (h : ∀ p ∈ W₁, p ∈ W ∨ p.2 = none) :
    ∀ p ∈ insert (s, (default : HIx 1)) W₁, p ∈ W ∨ p.2 = none := by
  intro p hp
  rcases Finset.mem_insert.mp hp with rfl | hp
  · exact .inr rfl
  · exact h p hp

/-- The worker at grid point `L` of device `d`. -/
theorem tile_body (hF : (K (F := F)).Facts) (O : CellTallies nD τ sig (HIx 1)) (W : Waits sig (HIx 1)) (hO : ∀ g, O g none = 0) :
    iprop(levAts (K (F := F)).L (K (F := F)).lev ∗ emp
        ∗ (bigSep Finset.univ fun k : Fin 16 => iprop(eChunkPts m d (chunkNo (cL L) (sL L) k) ∗ oChunkPts d (chunkNo (cL L) (sL L) k) (m (oLoc d))))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__copy_body L eW (Memref.isWhole_whole _) oW (Memref.isWhole_whole _) bW (Memref.isWhole_whole _) cc0_scratch1 cc0_scratch2)
          fun _ => iprop((bigSep Finset.univ fun k : Fin 16 => iprop(eChunkPts m d (chunkNo (cL L) (sL L) k) ∗ oChunkPts d (chunkNo (cL L) (sL L) k) (want m d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__copy_body_eq_skeleton]; unfold cc0__copy_body_skel
  rw [(K (F := F)).scopedBufs_V hF d (cV L) (jV L), SparseCore.Cfg.scopedSems0_V (Val := Elt F) d (cV L) (jV L), ownSems0_V, ownBufs_V,
    bigSep_fin16, bigSep_fin16]
  iintro ⟨#Hlv, -, ⟨⟨He0, Ho0⟩, ⟨He1, Ho1⟩, ⟨He2, Ho2⟩, ⟨He3, Ho3⟩, ⟨He4, Ho4⟩, ⟨He5, Ho5⟩, ⟨He6, Ho6⟩, ⟨He7, Ho7⟩, ⟨He8, Ho8⟩, ⟨He9, Ho9⟩, ⟨He10, Ho10⟩, ⟨He11, Ho11⟩, ⟨He12, Ho12⟩, ⟨He13, Ho13⟩, ⟨He14, Ho14⟩, ⟨He15, Ho15⟩⟩, ⟨⟨%fb, Hb⟩, Hbufs⟩, ⟨⟨Hi0, Hi1, Hi2, Hi3, Hi4, Hi5, Hi6, Hw0, Hw1, Hw2, Hw3, Hw4, Hw5, Hw6⟩, Hsems⟩, HO⟩
  ihave Hb' := (Entails.of_eq (bPts_slots (F := F) d L fb)) $$ Hb
  icases Hb' with ⟨Hb0, Hb1, Hb2, Hb3, Hb4, Hb5, Hb6⟩
  ihave Hmw := ((K (F := F)).mayWaits_none (thr := V d (cV L) (jV L)) hO) $$ Hlv
  ihave He0 := (Entails.of_eq (pts_e0 (F := F) d L _).symm) $$ He0
  ihave Ho0 := (Entails.of_eq (pts_o0 (F := F) d L _).symm) $$ Ho0
  ihave He1 := (Entails.of_eq (pts_e1 (F := F) d L _).symm) $$ He1
  ihave Ho1 := (Entails.of_eq (pts_o1 (F := F) d L _).symm) $$ Ho1
  ihave He2 := (Entails.of_eq (pts_e2 (F := F) d L _).symm) $$ He2
  ihave Ho2 := (Entails.of_eq (pts_o2 (F := F) d L _).symm) $$ Ho2
  ihave He3 := (Entails.of_eq (pts_e3 (F := F) d L _).symm) $$ He3
  ihave Ho3 := (Entails.of_eq (pts_o3 (F := F) d L _).symm) $$ Ho3
  ihave He4 := (Entails.of_eq (pts_e4 (F := F) d L _).symm) $$ He4
  ihave Ho4 := (Entails.of_eq (pts_o4 (F := F) d L _).symm) $$ Ho4
  ihave He5 := (Entails.of_eq (pts_e5 (F := F) d L _).symm) $$ He5
  ihave Ho5 := (Entails.of_eq (pts_o5 (F := F) d L _).symm) $$ Ho5
  ihave He6 := (Entails.of_eq (pts_e6 (F := F) d L _).symm) $$ He6
  ihave Ho6 := (Entails.of_eq (pts_o6 (F := F) d L _).symm) $$ Ho6
  ihave He7 := (Entails.of_eq (pts_e7 (F := F) d L _).symm) $$ He7
  ihave Ho7 := (Entails.of_eq (pts_o7 (F := F) d L _).symm) $$ Ho7
  ihave He8 := (Entails.of_eq (pts_e8 (F := F) d L _).symm) $$ He8
  ihave Ho8 := (Entails.of_eq (pts_o8 (F := F) d L _).symm) $$ Ho8
  ihave He9 := (Entails.of_eq (pts_e9 (F := F) d L _).symm) $$ He9
  ihave Ho9 := (Entails.of_eq (pts_o9 (F := F) d L _).symm) $$ Ho9
  ihave He10 := (Entails.of_eq (pts_e10 (F := F) d L _).symm) $$ He10
  ihave Ho10 := (Entails.of_eq (pts_o10 (F := F) d L _).symm) $$ Ho10
  ihave He11 := (Entails.of_eq (pts_e11 (F := F) d L _).symm) $$ He11
  ihave Ho11 := (Entails.of_eq (pts_o11 (F := F) d L _).symm) $$ Ho11
  ihave He12 := (Entails.of_eq (pts_e12 (F := F) d L _).symm) $$ He12
  ihave Ho12 := (Entails.of_eq (pts_o12 (F := F) d L _).symm) $$ Ho12
  ihave He13 := (Entails.of_eq (pts_e13 (F := F) d L _).symm) $$ He13
  ihave Ho13 := (Entails.of_eq (pts_o13 (F := F) d L _).symm) $$ Ho13
  ihave He14 := (Entails.of_eq (pts_e14 (F := F) d L _).symm) $$ He14
  ihave Ho14 := (Entails.of_eq (pts_o14 (F := F) d L _).symm) $$ Ho14
  ihave He15 := (Entails.of_eq (pts_e15 (F := F) d L _).symm) $$ He15
  ihave Ho15 := (Entails.of_eq (pts_o15 (F := F) d L _).symm) $$ Ho15
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  ihave Hb3 := (Entails.of_eq (pts_b3 (F := F) d L _).symm) $$ Hb3
  ihave Hb4 := (Entails.of_eq (pts_b4 (F := F) d L _).symm) $$ Hb4
  ihave Hb5 := (Entails.of_eq (pts_b5 (F := F) d L _).symm) $$ Hb5
  ihave Hb6 := (Entails.of_eq (pts_b6 (F := F) d L _).symm) $$ Hb6
  sl_exec
  sl_step
  -- the sixteen chunks: the table's as they were, the result's holding the table's rows
  isplitl [He0 Ho0 He1 Ho1 He2 Ho2 He3 Ho3 He4 Ho4 He5 Ho5 He6 Ho6 He7 Ho7 He8 Ho8 He9 Ho9 He10 Ho10 He11 Ho11 He12 Ho12 He13 Ho13 He14 Ho14 He15 Ho15]
  · isplitl [He0 Ho0]
    · isplitl [He0]
      · iapply (Entails.of_eq (pts_e0 (F := F) d L _)); iexact He0
      · iapply (Entails.of_eq (chunk_lands m d L 0 _ _ (fun x => relay _ _ _ _ x))); iexact Ho0
    isplitl [He1 Ho1]
    · isplitl [He1]
      · iapply (Entails.of_eq (pts_e1 (F := F) d L _)); iexact He1
      · iapply (Entails.of_eq (chunk_lands m d L 1 _ _ (fun x => relay _ _ _ _ x))); iexact Ho1
    isplitl [He2 Ho2]
    · isplitl [He2]
      · iapply (Entails.of_eq (pts_e2 (F := F) d L _)); iexact He2
      · iapply (Entails.of_eq (chunk_lands m d L 2 _ _ (fun x => relay _ _ _ _ x))); iexact Ho2
    isplitl [He3 Ho3]
    · isplitl [He3]
      · iapply (Entails.of_eq (pts_e3 (F := F) d L _)); iexact He3
      · iapply (Entails.of_eq (chunk_lands m d L 3 _ _ (fun x => relay _ _ _ _ x))); iexact Ho3
    isplitl [He4 Ho4]
    · isplitl [He4]
      · iapply (Entails.of_eq (pts_e4 (F := F) d L _)); iexact He4
      · iapply (Entails.of_eq (chunk_lands m d L 4 _ _ (fun x => relay _ _ _ _ x))); iexact Ho4
    isplitl [He5 Ho5]
    · isplitl [He5]
      · iapply (Entails.of_eq (pts_e5 (F := F) d L _)); iexact He5
      · iapply (Entails.of_eq (chunk_lands m d L 5 _ _ (fun x => relay _ _ _ _ x))); iexact Ho5
    isplitl [He6 Ho6]
    · isplitl [He6]
      · iapply (Entails.of_eq (pts_e6 (F := F) d L _)); iexact He6
      · iapply (Entails.of_eq (chunk_lands m d L 6 _ _ (fun x => relay _ _ _ _ x))); iexact Ho6
    isplitl [He7 Ho7]
    · isplitl [He7]
      · iapply (Entails.of_eq (pts_e7 (F := F) d L _)); iexact He7
      · iapply (Entails.of_eq (chunk_lands m d L 7 _ _ (fun x => relay _ _ _ _ x))); iexact Ho7
    isplitl [He8 Ho8]
    · isplitl [He8]
      · iapply (Entails.of_eq (pts_e8 (F := F) d L _)); iexact He8
      · iapply (Entails.of_eq (chunk_lands m d L 8 _ _ (fun x => relay _ _ _ _ x))); iexact Ho8
    isplitl [He9 Ho9]
    · isplitl [He9]
      · iapply (Entails.of_eq (pts_e9 (F := F) d L _)); iexact He9
      · iapply (Entails.of_eq (chunk_lands m d L 9 _ _ (fun x => relay _ _ _ _ x))); iexact Ho9
    isplitl [He10 Ho10]
    · isplitl [He10]
      · iapply (Entails.of_eq (pts_e10 (F := F) d L _)); iexact He10
      · iapply (Entails.of_eq (chunk_lands m d L 10 _ _ (fun x => relay _ _ _ _ x))); iexact Ho10
    isplitl [He11 Ho11]
    · isplitl [He11]
      · iapply (Entails.of_eq (pts_e11 (F := F) d L _)); iexact He11
      · iapply (Entails.of_eq (chunk_lands m d L 11 _ _ (fun x => relay _ _ _ _ x))); iexact Ho11
    isplitl [He12 Ho12]
    · isplitl [He12]
      · iapply (Entails.of_eq (pts_e12 (F := F) d L _)); iexact He12
      · iapply (Entails.of_eq (chunk_lands m d L 12 _ _ (fun x => relay _ _ _ _ x))); iexact Ho12
    isplitl [He13 Ho13]
    · isplitl [He13]
      · iapply (Entails.of_eq (pts_e13 (F := F) d L _)); iexact He13
      · iapply (Entails.of_eq (chunk_lands m d L 13 _ _ (fun x => relay _ _ _ _ x))); iexact Ho13
    isplitl [He14 Ho14]
    · isplitl [He14]
      · iapply (Entails.of_eq (pts_e14 (F := F) d L _)); iexact He14
      · iapply (Entails.of_eq (chunk_lands m d L 14 _ _ (fun x => relay _ _ _ _ x))); iexact Ho14
    isplitl [He15]
    · iapply (Entails.of_eq (pts_e15 (F := F) d L _)); iexact He15
    · iapply (Entails.of_eq (chunk_lands m d L 15 _ _ (fun x => relay _ _ _ _ x))); iexact Ho15
  -- the scratch, whatever its slots hold, and the rest of the worker's own buffers
  isplitl [Hb0 Hb1 Hb2 Hb3 Hb4 Hb5 Hb6 Hbufs]
  · isplitl [Hb0 Hb1 Hb2 Hb3 Hb4 Hb5 Hb6]
    · ihave Hb0 := (Entails.of_eq (pts_b0 (F := F) d L _)) $$ Hb0
      ihave Hb1 := (Entails.of_eq (pts_b1 (F := F) d L _)) $$ Hb1
      ihave Hb2 := (Entails.of_eq (pts_b2 (F := F) d L _)) $$ Hb2
      ihave Hb3 := (Entails.of_eq (pts_b3 (F := F) d L _)) $$ Hb3
      ihave Hb4 := (Entails.of_eq (pts_b4 (F := F) d L _)) $$ Hb4
      ihave Hb5 := (Entails.of_eq (pts_b5 (F := F) d L _)) $$ Hb5
      ihave Hb6 := (Entails.of_eq (pts_b6 (F := F) d L _)) $$ Hb6
      iapply (slots_join d L _ _ _ _ _ _ _)
      isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      iexact Hb6
    · iexact Hbufs
  -- the semaphores, back at zero
  isplitl [Hi0 Hi1 Hi2 Hi3 Hi4 Hi5 Hi6 Hw0 Hw1 Hw2 Hw3 Hw4 Hw5 Hw6 Hsems]
  · isplitl [Hi0 Hi1 Hi2 Hi3 Hi4 Hi5 Hi6 Hw0 Hw1 Hw2 Hw3 Hw4 Hw5 Hw6]
    · isplitl [Hi0]; · iexact Hi0
      isplitl [Hi1]; · iexact Hi1
      isplitl [Hi2]; · iexact Hi2
      isplitl [Hi3]; · iexact Hi3
      isplitl [Hi4]; · iexact Hi4
      isplitl [Hi5]; · iexact Hi5
      isplitl [Hi6]; · iexact Hi6
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      iexact Hw6
    · iexact Hsems
  iexists _
  isplitr
  rotate_left
  · iexact HO
  · ipureintro
    iterate 32 refine ins_ok _ ?_
    exact fun p hp => .inl hp

end Tile

end Cert.Kernel.Copy

end
-- ==== Proof.BitsLaunch.lean ====
/-
  The launch. The table and the result are handed to the two SparseCores as the 512 chunks (rows 16·g … 16·g + 15 of
  each), every worker receiving its own sixteen of both; a worker returns its chunks of the table as they were and its
  chunks of the result holding the table's rows. Since the 512 chunks are disjoint and cover both arrays, what comes
  back is the table unchanged and the result equal, entry by entry, to the table under a leading axis of extent one.
  The token ids are never handed to anyone. No worker signals another: the only ghost state is the launch's handshakes
  and the transfers' counters.
-/
import proofs.«202656_g558345749078_cont_9to1c4b_557_14_alg».proof.Kernel
import proofs.«202656_g558345749078_cont_9to1c4b_557_14_alg».proof.Proof.Gen.Kernel
import proofs.«202656_g558345749078_cont_9to1c4b_557_14_alg».proof.Proof.Gen.Kernel.Skeleton
import Idealize.ShloMosaic.Lib.SparseCore.Launch
import Idealize.ShloMosaic.Lib.SparseCore.Ops
import Idealize.ShloMosaic.Lib.Pipeline.Kit
import Idealize.ShloMosaic.Lib.Tactic
import proofs.«202656_g558345749078_cont_9to1c4b_557_14_alg».proof.Proof.Spec
import proofs.«202656_g558345749078_cont_9to1c4b_557_14_alg».proof.Proof.BitsChunks
import proofs.«202656_g558345749078_cont_9to1c4b_557_14_alg».proof.Proof.BitsTile
import Idealize.ShloMosaic.Lib.StableHlo.Run

noncomputable section

namespace Cert.Kernel.Copy

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

variable [FloatOps F]

/-! ## What the handshakes carry -/

abbrev xPts (d : Dev nD) : sProp 𝕄 := xLoc d ↦{fullShare} m (xLoc d)
abbrev ePts (d : Dev nD) : sProp 𝕄 := eLoc d ↦{fullShare} m (eLoc d)
abbrev oPts (d : Dev nD) (f : Buf (Elt F) (oLoc d)) : sProp 𝕄 := oLoc d ↦{fullShare} f

/-- Worker `(c, s)`'s sixteen chunks of the table and of the result: the result's as launched, and as the worker leaves them. -/
abbrev tileIn (d : Dev nD) (c : Fin 2) (s : Fin 16) : sProp 𝕄 :=
  bigSep Finset.univ fun k : Fin 16 => iprop(eChunkPts m d (chunkNo c s k) ∗ oChunkPts d (chunkNo c s k) (m (oLoc d)))
abbrev tileOut (d : Dev nD) (c : Fin 2) (s : Fin 16) : sProp 𝕄 :=
  bigSep Finset.univ fun k : Fin 16 => iprop(eChunkPts m d (chunkNo c s k) ∗ oChunkPts d (chunkNo c s k) (want m d))

/-- The one call hands SparseCore `c` its sixteen workers' chunks, each worker its own, and brings them back. -/
def P : (K (F := F)).Pay (nD := nD) (Val := Elt F) (Name := ℕ) (U := UU) where
  st := fun q d c => match q with | 0 => bigSep Finset.univ fun i : Fin 16 => tileIn m d (Fin.cast nCore_zero c) i
  dn := fun q d c => match q with | 0 => bigSep Finset.univ fun i : Fin 16 => tileOut m d (Fin.cast nCore_zero c) i
  go := fun q d c i => match q with | 0 => tileIn m d (Fin.cast nCore_zero c) (Fin.cast nSub_zero i)
  td := fun q d c i => match q with | 0 => tileOut m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => tileIn m d (Fin.cast nCore_zero c) i))
  dn q d c := match q with
    | 0 => (inferInstance : BI.Storable (upEmb : UEmb _ 𝕄) (bigSep Finset.univ fun i : Fin 16 => tileOut m d (Fin.cast nCore_zero c) i))
  go q d c i := match q with
    | 0 => (inferInstance : BI.Storable (upEmb : UEmb _ 𝕄) (tileIn m d (Fin.cast nCore_zero c) (Fin.cast nSub_zero i)))
  td q d c i := match q with
    | 0 => (inferInstance : BI.Storable (upEmb : UEmb _ 𝕄) (tileOut m d (Fin.cast nCore_zero c) (Fin.cast nSub_zero i)))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__copy_body (coordsV c s)
          eW (Memref.isWhole_whole _) oW (Memref.isWhole_whole _) bW (Memref.isWhole_whole _) cc0_scratch1 cc0_scratch2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- the workers owe nothing for a protocol of their own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun i : Fin 16 => tileIn m d (Fin.cast nCore_zero c) i) ⊢ |={Set.univ}=> iprop(
      (bigSep Finset.univ fun i : Fin ((K (F := F)).nSub 0) => tileIn m d (Fin.cast nCore_zero c) (Fin.cast nSub_zero i))
      ∗ ((bigSep Finset.univ fun i : Fin ((K (F := F)).nSub 0) => tileOut m d (Fin.cast nCore_zero c) (Fin.cast nSub_zero i))
          -∗ bigSep Finset.univ fun i : Fin 16 => tileOut m d (Fin.cast nCore_zero c) i))
  rw [bigSep_tasks (F := F) (fun i => tileIn m d (Fin.cast nCore_zero c) i), bigSep_tasks (F := F) (fun i => tileOut m d (Fin.cast nCore_zero c) i)]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## An array is its 512 chunks; the chunks by worker -/

omit [FloatOps F] in
theorem ePts_chunks (d : Dev nD) (f : Buf (Elt F) (eLoc d)) :
    (eLoc d ↦{fullShare} f : sProp 𝕄) = bigSep Finset.univ fun g : Fin 512 => eLoc d ↦[eSet g]{fullShare} f := by
  rw [← pointsTo_biUnion Finset.univ (ℓ := eLoc d) eSet eSets_disjoint, eSets_cover]; try rfl
omit [FloatOps F] in
theorem oPts_chunks (d : Dev nD) (f : Buf (Elt F) (oLoc d)) :
    (oLoc d ↦{fullShare} f : sProp 𝕄) = bigSep Finset.univ fun g : Fin 512 => oLoc d ↦[oSet g]{fullShare} f := by
  rw [← pointsTo_biUnion Finset.univ (ℓ := oLoc d) oSet oSets_disjoint, oSets_cover]; try rfl

/-- The 512 chunks, listed worker by worker. -/
def chunkEquiv : Fin 2 × Fin 16 × Fin 16 ≃ Fin 512 :=
  Equiv.ofBijective (fun p => chunkNo p.1 p.2.1 p.2.2)
    ⟨fun p p' h => by
      obtain ⟨h1, h2, h3⟩ := chunkNo_inj h
      exact Prod.ext h1 (Prod.ext h2 h3),
    fun g => by
      obtain ⟨c, s, k, h⟩ := chunkNo_surj g
      exact ⟨(c, s, k), h⟩⟩

omit [FloatOps F] in
theorem bigSep_chunks (Φ : Fin 512 → sProp 𝕄) :
    bigSep Finset.univ Φ
      = bigSep Finset.univ fun c : Fin 2 => bigSep Finset.univ fun s : Fin 16 => bigSep Finset.univ fun k : Fin 16 => Φ (chunkNo c s k) := by
  rw [bigSep_univ_equiv chunkEquiv Φ, bigSep_univ_prod]
  refine bigSep_congr fun c _ => ?_
  rw [bigSep_univ_prod]
  rfl

omit [FloatOps F] in
theorem arrays_chunks (d : Dev nD) (fe : Buf (Elt F) (eLoc d)) (fo : Buf (Elt F) (oLoc d)) :
    (iprop((eLoc d ↦{fullShare} fe) ∗ oLoc d ↦{fullShare} fo) : sProp 𝕄)
      = bigSep Finset.univ fun c : Fin 2 => bigSep Finset.univ fun s : Fin 16 => bigSep Finset.univ fun k : Fin 16 =>
          iprop((eLoc d ↦[eSet (chunkNo c s k)]{fullShare} fe) ∗ oLoc d ↦[oSet (chunkNo c s k)]{fullShare} fo) := by
  rw [ePts_chunks, oPts_chunks, ← bigSep_sep',
    bigSep_chunks (fun g => iprop((eLoc d ↦[eSet g]{fullShare} fe) ∗ oLoc d ↦[oSet g]{fullShare} fo))]

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (eLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = iprop(ePts m d ∗ oPts d (m (oLoc d))) := by
  show (bigSep Finset.univ fun c : Fin ((K (F := F)).nCore 0) => bigSep Finset.univ fun i : Fin 16 => tileIn m d (Fin.cast nCore_zero c) i) = _
  rw [bigSep_cores (F := F) (fun c => bigSep Finset.univ fun i : Fin 16 => tileIn m d c i)]
  exact (arrays_chunks d (m (eLoc d)) (m (oLoc d))).symm
theorem dn0_eq (d : Dev nD) : (bigSep Finset.univ fun c : Fin ((K (F := F)).nCore 0) => (P m).dn 0 d c) = iprop(ePts m d ∗ oPts d (want m d)) := by
  show (bigSep Finset.univ fun c : Fin ((K (F := F)).nCore 0) => bigSep Finset.univ fun i : Fin 16 => tileOut m d (Fin.cast nCore_zero c) i) = _
  rw [bigSep_cores (F := F) (fun c => bigSep Finset.univ fun i : Fin 16 => tileOut m d c i)]
  exact (arrays_chunks d (m (eLoc d)) (want m d)).symm

/-- What @main leaves the claim: the token ids and the table as launched, the result holding the table's rows. -/
abbrev FIN (d : Dev nD) : sProp 𝕄 := iprop(xPts m d ∗ ePts m d ∗ oPts d (want m d))

/-- @main on device `d`'s TensorCore: the one call, from the table and the result; the token ids stay where they are. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, He, Ho⟩, -, -⟩, -⟩
  iapply ((K (F := F)).wp_run (D (F := F)) 𝒱 (EH := EH) (P := P m) κ d 0) $$ [Hst Hx He Ho]
  isplitr; · iexact Hctx
  isplitl [Hst]; · iexact Hst
  isplitl [He Ho]
  · rw [st0_eq]
    isplitl [He]; · iexact He
    iexact Ho
  iintro ⟨Hst, Hdn⟩
  ihave Hdn' := (Entails.of_eq (dn0_eq m d)) $$ Hdn
  icases Hdn' with ⟨He, Ho⟩
  imodintro
  isplitl [Hst]; · iexact Hst
  isplitl [Hx]; · iexact Hx
  isplitl [He]; · iexact He
  iexact Ho

def fq (d : Dev nD) (s' : Phys nD τ sig (Elt F)) : Prop :=
  s'.mem.mem (oLoc d) = want m d ∧ s'.mem.mem (xLoc d) = m (xLoc d) ∧ s'.mem.mem (eLoc d) = m (eLoc d)

theorem hfin (d : Dev nD) (s' : Phys nD τ sig (Elt F)) : iprop(FIN m d ∗ SI s') ⊢ (⌜fq m d s'⌝ : sProp 𝕄) := by
  iintro ⟨⟨Hx, He, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h2, HSI, -⟩
  ihave H := (SI_pointsTo_agree (st := s') (ℓ := oLoc d) (I := Finset.univ) (q := fullShare) (f := want m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every device ends with the result holding the table's rows and both arguments as launched. -/
def QC : PUnit × MemSt nD τ sig (Elt F) → Prop := fun r => ∀ c : Dev nD,
  r.2.mem (oLoc c) = want m c ∧ r.2.mem (xLoc c) = m (xLoc c) ∧ r.2.mem (eLoc c) = m (eLoc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Kernel.Copy

end
-- ==== Proof.RefOps.lean ====
/-
  The reference program's @main as one straight line of host operations, and its run read back.

  @main is an iota, a call of the outlined take function (which itself calls the outlined where function), and a
  broadcast that puts a leading axis of extent one in front. A call executes the callee's body on the operands, so
  the calls unfolded at their sites make @main a list of twenty-five operations over the buffers of the call records.
  From any memory with zero counters every weakly fair execution of that line terminates, each buffer then holding the
  fold of the operations over the launch contents; read at the result buffer the fold is the operations' composed
  pure term `out` of the table argument, and at the two argument buffers it is what was there.
-/
import proofs.«202656_g558345749078_cont_9to1c4b_557_14_alg».proof.ReferenceIdeal
import proofs.«202656_g558345749078_cont_9to1c4b_557_14_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term, by stages -/

/-- The positions `0, 1, …, 8191` as 32-bit words: the index operand of the take. -/
def positions : (⟨S8192, .i32⟩ : BufTy).Contents (Elt F) := iotaInDim S8192 32 0

/-- The negative-index wrap: where a position is below zero it is moved up by the table's height. -/
def wrapped : (⟨S8192, .i32⟩ : BufTy).Contents (Elt F) :=
  select (cmpi .slt (positions (F := F)) (broadcastInDim S8192 ![] bcast_S_S8192 (constantI S_ 32 0#32)))
    (addi (positions (F := F)) (broadcastInDim S8192 ![] bcast_S_S8192 (constantI S_ 32 8192#32)))
    (positions (F := F))

/-- The wrapped positions as a column of one-entry index vectors: the gather's start indices. -/
def starts : (⟨S8192x1, .i32⟩ : BufTy).Contents (Elt F) :=
  broadcastInDim S8192x1 ![0] bcast_S8192_S8192x1_0 (wrapped (F := F))

/-- Which rows' start index lies inside the table, `0 ≤ start ≤ 8191`, conjoined over the index vector's one entry. -/
def inRange : (⟨S8192, .i1⟩ : BufTy).Contents (Elt F) :=
  Host.reduce IntOp.andi
    (andi (cmpi .sge (starts (F := F)) (broadcastInDim S8192x1 ![] bcast_S_S8192x1 (constantI S_ 32 0#32)))
      (cmpi .sle (starts (F := F))
        (broadcastInDim S8192x1 ![0, 1] bcast_S1x1_S8192x1_0_1
          (broadcastInDim S1x1 ![1] bcast_S1_S1x1_1 (constantI S1 32 8191#32)))))
    (constantI S_ 1 1#1) reducesTo_S8192x1_S8192_d1 h_S_

/-- The taken rows: the gathered row where its start index is in range, the filler literal elsewhere. -/
def taken (x : (⟨S8192x1024, .f32⟩ : BufTy).Contents (Elt F)) : (⟨S8192x1024, .f32⟩ : BufTy).Contents (Elt F) :=
  select (broadcastInDim S8192x1024 ![0] bcast_S8192_S8192x1024_0 (inRange (F := F)))
    (Host.gather gather_S8192x1024_S8192x1_S8192x1024_1_0_n_n_0_1_11024 x (starts (F := F)))
    (broadcastInDim S8192x1024 ![] bcast_S_S8192x1024 (constant S_ .f32 0x7FC00000#32))

/-- The reference's result as a function of the table: the taken rows under a new leading axis of extent one. -/
def out (x : (⟨S8192x1024, .f32⟩ : BufTy).Contents (Elt F)) : (⟨S1x8192x1024, .f32⟩ : BufTy).Contents (Elt F) :=
  broadcastInDim S1x8192x1024 ![1, 2] bcast_S8192x1024_S1x8192x1024_1_2 (taken x)

/-! ## The line of operations -/

/-- @main's operations in order, the calls unfolded: the iota; the take function's twenty-three — the zero and its
    broadcast, the comparison below zero, the height and its broadcast, the sum, the where function's one select, the
    index column, the bounds and their broadcasts, the two comparisons, their conjunction, the reduction over the index
    vector's axis, the gather, the mask's broadcast, the filler and its broadcast, the select — into the call records'
    buffers; and the broadcast under a leading axis. -/
abbrev ops : List (HloOp τ sig (Elt F)) :=
  [ nullary main_v0 (iotaInDim S8192 32 0),
    TRef.nullary main_call0.c (constantI S_ 32 0#32),
    TRef.unary main_call0.c main_call0.v0 (broadcastInDim S8192 ![] bcast_S_S8192),
    TRef.binary (.of main_v0) main_call0.v0 main_call0.v1 (cmpi .slt),
    TRef.nullary main_call0.c_0 (constantI S_ 32 8192#32),
    TRef.unary main_call0.c_0 main_call0.v2 (broadcastInDim S8192 ![] bcast_S_S8192),
    TRef.binary (.of main_v0) main_call0.v2 main_call0.v3 addi,
    TRef.ternary main_call0.v1 main_call0.v3 (.of main_v0) main_call0.call0.v0 select,
    TRef.unary main_call0.call0.v0 main_call0.v5 (broadcastInDim S8192x1 ![0] bcast_S8192_S8192x1_0),
    TRef.nullary main_call0.c_1 (constantI S1 32 8191#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1) main_call0.v5 main_call0.v13 (fun x i => Host.gather gather_S8192x1024_S8192x1_S8192x1024_1_0_n_n_0_1_11024 x i),
    TRef.unary main_call0.v12 main_call0.v14 (broadcastInDim S8192x1024 ![0] bcast_S8192_S8192x1024_0),
    TRef.nullary main_call0.cst (constant S_ .f32 0x7FC00000#32),
    TRef.unary main_call0.cst main_call0.v15 (broadcastInDim S8192x1024 ![] bcast_S_S8192x1024),
    TRef.ternary main_call0.v14 main_call0.v13 main_call0.v15 main_call0.v16 select,
    unary main_v1 main_v2 (broadcastInDim S1x8192x1024 ![1, 2] bcast_S8192x1024_S1x8192x1024_1_2 : (⟨S8192x1024, .f32⟩ : BufTy).Contents (Elt F) → (⟨S1x8192x1024, .f32⟩ : BufTy).Contents (Elt F)) ]

set_option maxRecDepth 1024 in
/-- @main is that straight line: the two functions' definitions unfolded at their calls, both sides are one chain of
    operation steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub ..⟩

/-- From any memory with zero counters every weakly fair execution of @main on the TensorCores terminates, and every
    final state has each TensorCore buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold read at the result and at the arguments -/

attribute [local irreducible] Host.reduce Host.gather in
/-- The fold at the result buffer is `out` of the table's launch contents: the fold unrolled, each operation's result
    at the buffer it writes is its function's value and elsewhere what was there, and the typed references' transports
    are the identity at these literal references. The reduction and the gather stay folded meanwhile: the equation
    never looks inside them. -/
theorem out_eq (V : Valuation τ sig (Elt F)) :
    after ops V (main_v2 : DevRef τ sig) = out (V (main_arg1 : DevRef τ sig)) := by
  after_results
  rfl

/-- No operation of the line writes the first argument. -/
theorem arg0_eq (V : Valuation τ sig (Elt F)) :
    after ops V (main_arg0 : DevRef τ sig) = V (main_arg0 : DevRef τ sig) := by
  after_results

/-- No operation of the line writes the table argument. -/
theorem arg1_eq (V : Valuation τ sig (Elt F)) :
    after ops V (main_arg1 : DevRef τ sig) = V (main_arg1 : DevRef τ sig) := by
  after_results

/-- On every device, for any float values, from any memory with zero counters: every weakly fair execution of @main
    terminates with the result buffer at `out` of the table argument's launch contents and both arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = out (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (out_eq _), (h c main_arg0).trans (arg0_eq _),
      (h c main_arg1).trans (arg1_eq _)⟩)
    (run_fold m ρ)

end Cert.ReferenceIdeal.RefRun

end
-- ==== Proof.RefLemmas.lean ====
/-
  Three small facts about host operations, none of them about a particular program.

  Words: a natural number below `2³¹` written as a 32-bit word reads back as itself when the word is read signed, so
  its signed comparisons with other such words are the comparisons of the numbers. A reduction: when every element
  of the operand and the initial value are one value `e` with `f e e = e`, a reduce with body `f` is `e` at every
  result index, whatever the reduced axes. A gather of whole rows: for a matrix operand `[N, D]`, start indices
  `[R, 1]` and slices of one whole row (offset axis 1, collapsed axis 0, the start index naming axis 0), result entry
  `(r, c)` is the operand at row `start[r, 0]` — read signed and clamped into `[0, N − 1]` — and column `c`.
-/
import Idealize.ShloMosaic.Lib.ValueIdx
import Idealize.ShloMosaic.PureOps

noncomputable section

namespace Cert.ReferenceIdeal.RefValue

open Idealize.ShloMosaic Idealize.ShloMosaic.ValueIdx

/-! ## Small numbers as signed 32-bit words -/

/-- A number below `2³¹` as a 32-bit word, read signed, is the number. -/
theorem toInt_ofNat_small {n : Nat} (hn : n < 2147483648) : (BitVec.ofNat 32 n).toInt = (n : Int) := by
  rw [BitVec.toInt_eq_toNat_cond, BitVec.toNat_ofNat]
  have h1 : n % 2 ^ 32 = n := Nat.mod_eq_of_lt (by omega)
  rw [h1, if_pos (by omega)]

/-- Read signed and then as a natural number it is the number again. -/
theorem toInt_toNat_ofNat_small {n : Nat} (hn : n < 2147483648) : (BitVec.ofNat 32 n).toInt.toNat = n := by
  rw [toInt_ofNat_small hn]; rfl

/-- Signed "less than" between two small numbers' words is the numbers' "less than". -/
theorem cmpi_slt_small {a b : Nat} (ha : a < 2147483648) (hb : b < 2147483648) :
    IntOp.cmpi .slt (BitVec.ofNat 32 a) (BitVec.ofNat 32 b) = BitVec.ofBool (decide (a < b)) := by
  unfold IntOp.cmpi
  simp only [BitVec.slt, toInt_ofNat_small ha, toInt_ofNat_small hb, Int.ofNat_lt]

/-- Signed "at most" between two small numbers' words is the numbers' "at most". -/
theorem cmpi_sle_small {a b : Nat} (ha : a < 2147483648) (hb : b < 2147483648) :
    IntOp.cmpi .sle (BitVec.ofNat 32 a) (BitVec.ofNat 32 b) = BitVec.ofBool (decide (a ≤ b)) := by
  unfold IntOp.cmpi
  simp only [BitVec.sle, toInt_ofNat_small ha, toInt_ofNat_small hb, Int.ofNat_le]

/-- Signed "at least" between two small numbers' words is the numbers' "at least". -/
theorem cmpi_sge_small {a b : Nat} (ha : a < 2147483648) (hb : b < 2147483648) :
    IntOp.cmpi .sge (BitVec.ofNat 32 a) (BitVec.ofNat 32 b) = BitVec.ofBool (decide (b ≤ a)) := by
  unfold IntOp.cmpi
  simp only [BitVec.sle, toInt_ofNat_small ha, toInt_ofNat_small hb, Int.ofNat_le]

/-! ## A reduction of a constant array by an operation that fixes the constant -/

/-- When the operand is `e` everywhere, the initial value is `e` and `f e e = e`, the reduce is `e` everywhere: the left
    fold starts at `e` and every step combines `e` with `e`. -/
theorem reduce_const {α : Type} {s t u : Shape} {axes : List (Fin s.rank)} (f : α → α → α) (e : α) (hf : f e e = e)
    (x : s.Idx → α) (hx : ∀ i, x i = e) (init : u.Idx → α) (hi : ∀ i, init i = e) (h : s.ReducesTo axes t)
    (hu : 0 < u.numel) (j : t.Idx) : Host.reduce f x init h hu j = e := by
  unfold Host.reduce
  rw [hi]
  generalize (List.filter _ _) = l
  induction l with
  | nil => rfl
  | cons n l ih => rw [List.foldl_cons, hx, hf]; exact ih

/-! ## A gather of whole rows of a matrix, read at an index -/

section Rows
variable {α : Type}

/-- The dimension numbers of a gather of whole rows: operand `[N, D]`, start indices `[R, 1]`, result `[R, D]`; the
    result's axis 1 is the offset within the row, the operand's axis 0 is collapsed and is the one the start index
    names, the index vector lies along axis 1 of the start indices, and a slice is one row, `[1, D]`. -/
abbrev rowDims (N R D : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(r, c)`: the operand at row `start[r, 0]`, read signed and clamped into `[0, N − 1]`, and
    column `c`. -/
theorem gather_rows_apply {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowDims N R D wf) x idx y
      = x (ix2 ⟨min (idx (ix2 (y 0) (0 : Fin 1))).toInt.toNat (N - 1), by omega⟩ (y 1)) := by
  unfold Host.gather
  congr 1
  funext a
  refine Fin.ext ?_
  match a with
  | ⟨0, _⟩ =>
    show (rowDims N R D wf).start y idx 0 + (rowDims N R D wf).batchCoord y 0 + (rowDims N R D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R D wf).startIndexMap from List.mem_singleton.mpr rfl)]
    have hsi : (rowDims N R D wf).siIdx y ⟨List.idxOf (0 : Fin 2) (rowDims N R D wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowDims N R D wf).start y idx 1 + (rowDims N R D wf).batchCoord y 1 + (rowDims N R D wf).offCoord y 1 = (y 1).val
    rw [GatherDims.batchCoord_eq_zero _ _ _ List.not_mem_nil]
    have hs : (rowDims N R D wf).start y idx 1 = 0 := by
      unfold GatherDims.start
      rw [dif_neg (show (1 : Fin 2) ∉ ([0] : List (Fin 2)) by decide)]
    have ho : (rowDims N R D wf).offCoord y 1 = (y 1).val := by
      unfold GatherDims.offCoord
      rw [dif_pos ((GatherDims.mem_sKept _ _).mpr ⟨show (1 : Fin 2) ∉ ([0] : List (Fin 2)) by decide, List.not_mem_nil⟩)]
      rfl
    rw [hs, ho]; omega

end Rows

end Cert.ReferenceIdeal.RefValue

end
-- ==== Proof.RefValue.lean ====
/-
  The reference's composed term is the table under a new leading axis.

  The index operand of the take is the positions `0, …, 8191`. Each is a small number, so as a signed 32-bit word it
  is not below zero — the negative-index wrap leaves it alone — and lies between 0 and 8191 — the in-range mask is one
  at every row. The gather's start index of row `r` is therefore `r` itself, unclamped, the gathered row `r` is the
  table's row `r`, and the select under the all-ones mask keeps it: the filler literal is never read. The final
  broadcast puts the result under a leading axis of extent one. Nothing here depends on what a float is.
-/
import proofs.«202656_g558345749078_cont_9to1c4b_557_14_alg».proof.Proof.RefOps
import proofs.«202656_g558345749078_cont_9to1c4b_557_14_alg».proof.Proof.RefLemmas
import proofs.«202656_g558345749078_cont_9to1c4b_557_14_alg».proof.Proof.Spec
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.RefRun Idealize.ShloMosaic Idealize.ShloMosaic.ValueIdx

variable {F : FTy → Type} [FloatOps F]

/-- Position `r` is the word of `r`. -/
theorem positions_ix (r : Fin 8192) : positions (F := F) (ix1 r) = BitVec.ofNat 32 r.val := rfl

/-- The wrap leaves position `r` alone: as a signed word it is not below zero. -/
theorem wrapped_ix (r : Fin 8192) : wrapped (F := F) (ix1 r) = BitVec.ofNat 32 r.val := by
  have hr : r.val < 8192 := r.isLt
  show Scalar.select (IntOp.cmpi .slt (BitVec.ofNat 32 r.val) (BitVec.ofNat 32 0)) _ (BitVec.ofNat 32 r.val) = _
  rw [cmpi_slt_small (by omega) (by omega), show decide (r.val < 0) = false from decide_eq_false (Nat.not_lt_zero _)]
  exact select_zero _ _

/-- The start index of row `r` is the word of `r`. -/
theorem starts_ix (r : Fin 8192) (z : Fin 1) : starts (F := F) (ix2 r z) = BitVec.ofNat 32 r.val := by
  have h := broadcastInDim_apply (![0] : Fin 1 → Fin 2) bcast_S8192_S8192x1_0 (wrapped (F := F)) (ix2 r z) (ix1 r) (by
    intro a
    fin_cases a
    show r.val = if (8192 : ℕ) = 1 then 0 else r.val
    rw [if_neg (by decide)])
  exact h.trans (wrapped_ix r)

/-- Every start index is in range: both comparisons are one, and so is their conjunction. -/
theorem bounds_apply (i : S8192x1.Idx) :
    andi (cmpi .sge (starts (F := F)) (broadcastInDim S8192x1 ![] bcast_S_S8192x1 (constantI S_ 32 0#32)))
      (cmpi .sle (starts (F := F))
        (broadcastInDim S8192x1 ![0, 1] bcast_S1x1_S8192x1_0_1
          (broadcastInDim S1x1 ![1] bcast_S1_S1x1_1 (constantI S1 32 8191#32)))) i = 1#1 := by
  obtain ⟨r, z, rfl⟩ : ∃ (r : Fin 8192) (z : Fin 1), i = ix2 r z := ⟨i 0, i 1, eq_ix2 i⟩
  have hr : r.val < 8192 := r.isLt
  show IntOp.andi (IntOp.cmpi .sge (starts (F := F) (ix2 r z)) (BitVec.ofNat 32 0))
      (IntOp.cmpi .sle (starts (F := F) (ix2 r z)) (BitVec.ofNat 32 8191)) = 1#1
  rw [starts_ix, cmpi_sge_small (by omega) (by omega), cmpi_sle_small (by omega) (by omega),
    show decide (0 ≤ r.val) = true from decide_eq_true (Nat.zero_le _),
    show decide (r.val ≤ 8191) = true from decide_eq_true (by omega)]
  rfl

/-- The in-range mask is one at every row: a conjunction of ones from one. -/
theorem inRange_apply (j : S8192.Idx) : inRange (F := F) j = 1#1 := by
  unfold inRange
  exact reduce_const IntOp.andi 1#1 (by decide) _ bounds_apply _ (fun _ => rfl) _ _ j

/-- The taken entry `(r, c)` is the table's entry `(r, c)`. -/
theorem taken_ix (x : (⟨S8192x1024, .f32⟩ : BufTy).Contents (Elt F)) (r : Fin 8192) (c : Fin 1024) :
    taken x (ix2 r c) = x (ix2 r c) := by
  have hr : r.val < 8192 := r.isLt
  have hm : broadcastInDim S8192x1024 ![0] bcast_S8192_S8192x1024_0 (inRange (F := F)) (ix2 r c) = 1#1 := inRange_apply _
  have hg := gather_rows_apply (N := 8192) (R := 8192) (D := 1024) (by decide)
    gather_S8192x1024_S8192x1_S8192x1024_1_0_n_n_0_1_11024_wf x (starts (F := F)) (ix2 r c)
  show Scalar.select (broadcastInDim S8192x1024 ![0] bcast_S8192_S8192x1024_0 (inRange (F := F)) (ix2 r c))
      (Host.gather (rowDims 8192 8192 1024 gather_S8192x1024_S8192x1_S8192x1024_1_0_n_n_0_1_11024_wf) x (starts (F := F)) (ix2 r c)) _ = _
  rw [hm, select_one, hg]
  refine congrArg x (funext fun a => ?_)
  match a with
  | ⟨0, _⟩ =>
    refine Fin.ext ?_
    show min (starts (F := F) (ix2 r (0 : Fin 1))).toInt.toNat (8192 - 1) = r.val
    rw [starts_ix, toInt_toNat_ofNat_small (by omega)]
    omega
  | ⟨1, _⟩ => rfl

/-- The reference's result at `(b, r, c)` is the table's entry `(r, c)`. -/
theorem out_ix3 (x : (⟨S8192x1024, .f32⟩ : BufTy).Contents (Elt F)) (b : Fin 1) (r : Fin 8192) (c : Fin 1024) :
    out x (ix3 b r c) = x (ix2 r c) := by
  have h := broadcastInDim_apply (![1, 2] : Fin 2 → Fin 3) bcast_S8192x1024_S1x8192x1024_1_2 (taken x) (ix3 b r c) (ix2 r c) (by
    intro a
    fin_cases a
    · show r.val = if (8192 : ℕ) = 1 then 0 else r.val
      rw [if_neg (by decide)]
    · show c.val = if (1024 : ℕ) = 1 then 0 else c.val
      rw [if_neg (by decide)])
  exact h.trans (taken_ix x r c)

/-- THE VALUE: the reference's composed term of the table is the table under a new leading axis of extent one. -/
theorem out_eq_lead (x : (⟨S8192x1024, .f32⟩ : BufTy).Contents (Elt F)) : out x = Cert.Spec.lead x := by
  funext i
  obtain ⟨b, r, c, rfl⟩ : ∃ (b : Fin 1) (r : Fin 8192) (c : Fin 1024), i = ix3 b r c := ⟨i 0, i 1, i 2, eq_ix3 i⟩
  exact (out_ix3 x b r c).trans (Cert.Spec.lead_ix3 x b r c).symm

end Cert.ReferenceIdeal.RefValue

end
-- ==== Proof.RefRun.lean ====
/-
  The reference's run and value in one statement, at the ideal instance: from any memory with zero counters every
  weakly fair execution of the reference's @main terminates with the result buffer holding the table argument's launch
  contents under a new leading axis of extent one, and both arguments unchanged. The run gives the result as the
  operations' composed term of the table (the line of operations folded over the launch contents); the value lemma
  says that term is the table under the leading axis.
-/
import proofs.«202656_g558345749078_cont_9to1c4b_557_14_alg».proof.ReferenceIdeal
import proofs.«202656_g558345749078_cont_9to1c4b_557_14_alg».proof.Proof.Gen.ReferenceIdeal
import proofs.«202656_g558345749078_cont_9to1c4b_557_14_alg».proof.Proof.Spec
import proofs.«202656_g558345749078_cont_9to1c4b_557_14_alg».proof.Proof.RefOps
import proofs.«202656_g558345749078_cont_9to1c4b_557_14_alg».proof.Proof.RefValue
import Idealize.ShloMosaic.Lib.StableHlo.Run
import Idealize.ShloMosaic.PureOps.Ideal.Laws

open Idealize.ShloMosaic Idealize.ShloMosaic.TcCoe Idealize.SL.Sem Idealize.ShloMosaic.StableHlo

namespace Cert.ReferenceIdeal.RefRun
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v2)
            = Cert.Spec.lead (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono
    (fun _ h c => ⟨(h c).1.trans (Cert.ReferenceIdeal.RefValue.out_eq_lead _), (h c).2.1, (h c).2.2⟩)
    (run_term (F := Ideal) m ρ)
end Cert.ReferenceIdeal.RefRun
-- ==== Proof.lean ====
/-
  The kernel copies a positional table of 8192 rows by 1024 columns, unchanged, into a result with a leading axis of
  extent one: 32 workers (2 SparseCores by 16 vector subcores), worker 2·s + c moving rows 256·(2·s + c) … + 255 in
  sixteen chunks of sixteen rows through a seven-slot scratch, each slot with its own pair of semaphores. The reference
  takes the rows 0 … 8191 of the table, in order, and adds the leading axis. Both results are
  `out[0, r, c] = table[r, c]` (Proof/Spec.lean); no arithmetic is done on any entry, so the two agree at every
  instance of the floats and nothing is asked of the inputs.

  The kernel's run — every weakly fair execution of the 35 threads ends, nothing faults, the arguments are as launched,
  the result holds the table's rows — is Proof/IdealLaunch.lean (at the extended reals) and Proof/BitsLaunch.lean (the
  same text over the word-level program), over one worker's task (Proof/…Tile.lean) and the chunks' geometry
  (Proof/…Chunks.lean). The reference's run and value are Proof/RefRun.lean (over Proof/RefOps.lean, RefValue.lean,
  RefLemmas.lean). The idealization rewrote no operation, so there is nothing to preserve.
-/
import proofs.«202656_g558345749078_cont_9to1c4b_557_14_alg».proof.Defs
import proofs.«202656_g558345749078_cont_9to1c4b_557_14_alg».proof.Proof.Gen.Kernel
import proofs.«202656_g558345749078_cont_9to1c4b_557_14_alg».proof.Proof.Gen.Kernel.Skeleton
import proofs.«202656_g558345749078_cont_9to1c4b_557_14_alg».proof.Proof.Gen.KernelIdeal
import proofs.«202656_g558345749078_cont_9to1c4b_557_14_alg».proof.Proof.Gen.KernelIdeal.Skeleton
import proofs.«202656_g558345749078_cont_9to1c4b_557_14_alg».proof.Proof.Gen.ReferenceIdeal
import proofs.«202656_g558345749078_cont_9to1c4b_557_14_alg».proof.Proof.Gen.Pre_input_domain
import proofs.«202656_g558345749078_cont_9to1c4b_557_14_alg».proof.Proof.Spec
import proofs.«202656_g558345749078_cont_9to1c4b_557_14_alg».proof.Proof.IdealLaunch
import proofs.«202656_g558345749078_cont_9to1c4b_557_14_alg».proof.Proof.BitsLaunch
import proofs.«202656_g558345749078_cont_9to1c4b_557_14_alg».proof.Proof.RefRun
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m g _ =>
  (θ_run Cert.Kernel.defs _ _).mono (fun _ h c => ⟨(h c).2.1, (h c).2.2⟩) (Cert.Kernel.Copy.run_main (F := Bits) m g)

/-- So does the idealized kernel. -/
theorem frame_ki : Cert.frame_KernelIdeal := fun m g _ =>
  (θ_run Cert.KernelIdeal.defs _ _).mono (fun _ h c => ⟨(h c).2.1, (h c).2.2⟩) (Cert.KernelIdeal.Copy.run_main (F := Ideal) m g)

/-- So does the reference. -/
theorem frame_ri : Cert.frame_ReferenceIdeal := fun m g _ =>
  (θ_run Cert.ReferenceIdeal.defs _ _).mono (fun _ h c => ⟨(h c).2.1, (h c).2.2⟩) (Cert.ReferenceIdeal.RefRun.run m g)

/-- The idealization rewrote nothing. -/
theorem preserves : Cert.preserves_Kernel_KernelIdeal := trivial

/-- From memories that agree on the arguments both programs end with the table under a leading axis of extent one. -/
theorem algebraic : Cert.algebraic_KernelIdeal_ReferenceIdeal := by
  intro m g m' g' _ hagree
  refine ⟨fun c => Cert.KernelIdeal.Copy.want m c, Cert.KernelIdeal.Copy.run_main (F := Ideal) m g, ?_⟩
  refine (θ_run Cert.ReferenceIdeal.defs _ _).mono (fun _ h c => ⟨(h c).1.trans ?_, (h c).2.1, (h c).2.2⟩)
    (Cert.ReferenceIdeal.RefRun.run m' g')
  rw [(hagree c).2]

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
